-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x96 : Shape := ⟨2, ![128, 96]⟩
abbrev S96 : Shape := ⟨1, ![96]⟩
abbrev S96x96 : Shape := ⟨2, ![96, 96]⟩
abbrev S96x21 : Shape := ⟨2, ![96, 21]⟩
abbrev S21 : Shape := ⟨1, ![21]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x96 : S_.BroadcastsInDim S128x96 (![] : Fin 0 → Fin S128x96.rank)
  reducesTo_S128x96_S_d0_1 : S128x96.ReducesTo [0, 1] S_
  bcast_S_S96 : S_.BroadcastsInDim S96 (![] : Fin 0 → Fin S96.rank)
  reducesTo_S96_S_d0 : S96.ReducesTo [0] S_
  bcast_S_S96x96 : S_.BroadcastsInDim S96x96 (![] : Fin 0 → Fin S96x96.rank)
  reducesTo_S96x96_S_d0_1 : S96x96.ReducesTo [0, 1] S_
  bcast_S_S96x21 : S_.BroadcastsInDim S96x21 (![] : Fin 0 → Fin S96x21.rank)
  reducesTo_S96x21_S_d0_1 : S96x21.ReducesTo [0, 1] S_
  bcast_S_S21 : S_.BroadcastsInDim S21 (![] : Fin 0 → Fin S21.rank)
  reducesTo_S21_S_d0 : S21.ReducesTo [0] S_

variable [Facts]

def fn_part2 {F : FTy → Type} [FloatOps F] (main_arg8 : FVec F S96x21 .f32) (main_arg9 : FVec F S21 .f32) (main_v33 : IVec S_ 1) : IVec S_ 1 :=
  let main_v34 : FVec F S96x21 .f32 := Host.absf main_arg8
  let main_cst_12 : FVec F S_ .f32 := constant S_ .f32 0x7F800000#32
  let main_v35 : FVec F S96x21 .f32 := broadcastInDim S96x21 ![] bcast_S_S96x21 main_cst_12
  let main_v36 : IVec S96x21 1 := cmpf .olt main_v34 main_v35
  let main_c_13 : IVec S_ 1 := constantI S_ 1 1#1
  let main_v37 : IVec S_ 1 := (fun x v => Host.reduce IntOp.andi x v reducesTo_S96x21_S_d0_1 h_S_) main_v36 main_c_13
  let main_v38 : IVec S_ 1 := andi main_v33 main_v37
  let main_v39 : FVec F S21 .f32 := Host.absf main_arg9
  let main_cst_14 : FVec F S_ .f32 := constant S_ .f32 0x7F800000#32
  let main_v40 : FVec F S21 .f32 := broadcastInDim S21 ![] bcast_S_S21 main_cst_14
  let main_v41 : IVec S21 1 := cmpf .olt main_v39 main_v40
  let main_c_15 : IVec S_ 1 := constantI S_ 1 1#1
  let main_v42 : IVec S_ 1 := (fun x v => Host.reduce IntOp.andi x v reducesTo_S21_S_d0 h_S_) main_v41 main_c_15
  let main_v43 : IVec S_ 1 := andi main_v38 main_v42
  main_v43

def fn_part1 {F : FTy → Type} [FloatOps F] (main_arg5 : FVec F S96 .f32) (main_arg6 : FVec F S96x96 .f32) (main_arg7 : FVec F S96 .f32) (main_arg8 : FVec F S96x21 .f32) (main_arg9 : FVec F S21 .f32) (main_v13 : IVec S_ 1) (main_v16 : IVec S96x96 1) : IVec S_ 1 :=
  let main_c_5 : IVec S_ 1 := constantI S_ 1 1#1
  let main_v17 : IVec S_ 1 := (fun x v => Host.reduce IntOp.andi x v reducesTo_S96x96_S_d0_1 h_S_) main_v16 main_c_5
  let main_v18 : IVec S_ 1 := andi main_v13 main_v17
  let main_v19 : FVec F S96 .f32 := Host.absf main_arg5
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  let main_v24 : FVec F S96x96 .f32 := Host.absf main_arg6
  let main_cst_8 : FVec F S_ .f32 := constant S_ .f32 0x7F800000#32
  let main_v25 : FVec F S96x96 .f32 := broadcastInDim S96x96 ![] bcast_S_S96x96 main_cst_8
  let main_v26 : IVec S96x96 1 := cmpf .olt main_v24 main_v25
  let main_c_9 : IVec S_ 1 := constantI S_ 1 1#1
  let main_v27 : IVec S_ 1 := (fun x v => Host.reduce IntOp.andi x v reducesTo_S96x96_S_d0_1 h_S_) main_v26 main_c_9
  let main_v28 : IVec S_ 1 := andi main_v23 main_v27
  let main_v29 : FVec F S96 .f32 := Host.absf main_arg7
  let main_cst_10 : FVec F S_ .f32 := constant S_ .f32 0x7F800000#32
  let main_v30 : FVec F S96 .f32 := broadcastInDim S96 ![] bcast_S_S96 main_cst_10
  let main_v31 : IVec S96 1 := cmpf .olt main_v29 main_v30
  let main_c_11 : IVec S_ 1 := constantI S_ 1 1#1
  let main_v32 : IVec S_ 1 := (fun x v => Host.reduce IntOp.andi x v reducesTo_S96_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x96 .f32) (main_arg3 : FVec F S96 .f32) (main_arg4 : FVec F S96x96 .f32) (main_arg5 : FVec F S96 .f32) (main_arg6 : FVec F S96x96 .f32) (main_arg7 : FVec F S96 .f32) (main_arg8 : FVec F S96x21 .f32) (main_arg9 : FVec F S21 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x96 .f32 := Host.absf main_arg2
  let main_cst_0 : FVec F S_ .f32 := constant S_ .f32 0x7F800000#32
  let main_v5 : FVec F S128x96 .f32 := broadcastInDim S128x96 ![] bcast_S_S128x96 main_cst_0
  let main_v6 : IVec S128x96 1 := cmpf .olt main_v4 main_v5
  let main_c_1 : IVec S_ 1 := constantI S_ 1 1#1
  let main_v7 : IVec S_ 1 := (fun x v => Host.reduce IntOp.andi x v reducesTo_S128x96_S_d0_1 h_S_) main_v6 main_c_1
  let main_v8 : IVec S_ 1 := andi main_v3 main_v7
  let main_v9 : FVec F S96 .f32 := Host.absf main_arg3
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96x96 .f32 := Host.absf main_arg4
  let main_cst_4 : FVec F S_ .f32 := constant S_ .f32 0x7F800000#32
  let main_v15 : FVec F S96x96 .f32 := broadcastInDim S96x96 ![] bcast_S_S96x96 main_cst_4
  let main_v16 : IVec S96x96 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x96 : Shape := ⟨2, ![128, 96]⟩
abbrev S96 : Shape := ⟨1, ![96]⟩
abbrev S96x96 : Shape := ⟨2, ![96, 96]⟩
abbrev S96x21 : Shape := ⟨2, ![96, 21]⟩
abbrev S21 : Shape := ⟨1, ![21]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S128 : Shape := ⟨1, ![128]⟩
abbrev S1x128 : Shape := ⟨2, ![1, 128]⟩
abbrev S50000x96 : Shape := ⟨2, ![50000, 96]⟩
abbrev S5000x128 : Shape := ⟨2, ![5000, 128]⟩
abbrev S5000x96 : Shape := ⟨2, ![5000, 96]⟩
abbrev S850000x96 : Shape := ⟨2, ![850000, 96]⟩
abbrev S1x96 : Shape := ⟨2, ![1, 96]⟩
abbrev S1x21 : Shape := ⟨2, ![1, 21]⟩
abbrev S50000x21 : Shape := ⟨2, ![50000, 21]⟩
abbrev S5000x21 : Shape := ⟨2, ![5000, 21]⟩

abbrev nBuf : Space → Nat
  | .hbm => 107
  | .vmem => 25
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x96, .f32⟩
  | .hbm, ⟨3, _⟩ => ⟨S96, .f32⟩
  | .hbm, ⟨4, _⟩ => ⟨S96x96, .f32⟩
  | .hbm, ⟨5, _⟩ => ⟨S96, .f32⟩
  | .hbm, ⟨6, _⟩ => ⟨S96x96, .f32⟩
  | .hbm, ⟨7, _⟩ => ⟨S96, .f32⟩
  | .hbm, ⟨8, _⟩ => ⟨S96x21, .f32⟩
  | .hbm, ⟨9, _⟩ => ⟨S21, .f32⟩
  | .hbm, ⟨10, _⟩ => ⟨S50000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000, .f32⟩
  | .hbm, ⟨49, _⟩ => ⟨S850000, .f32⟩
  | .hbm, ⟨50, _⟩ => ⟨S850000x1, .f32⟩
  | .hbm, ⟨51, _⟩ => ⟨S_, .f32⟩
  | .hbm, ⟨52, _⟩ => ⟨S128, .f32⟩
  | .hbm, ⟨53, _⟩ => ⟨S1x128, .f32⟩
  | .hbm, ⟨54, _⟩ => ⟨S50000x96, .f32⟩
  | .hbm, ⟨55, _⟩ => ⟨S_, .i32⟩
  | .hbm, ⟨56, _⟩ => ⟨S850000, .i32⟩
  | .hbm, ⟨57, _⟩ => ⟨S850000, .i1⟩
  | .hbm, ⟨58, _⟩ => ⟨S_, .i32⟩
  | .hbm, ⟨59, _⟩ => ⟨S850000, .i32⟩
  | .hbm, ⟨60, _⟩ => ⟨S850000, .i32⟩
  | .hbm, ⟨61, _⟩ => ⟨S850000, .i32⟩
  | .hbm, ⟨62, _⟩ => ⟨S850000x1, .i32⟩
  | .hbm, ⟨63, _⟩ => ⟨S850000x96, .f32⟩
  | .hbm, ⟨64, _⟩ => ⟨S850000x96, .f32⟩
  | .hbm, ⟨65, _⟩ => ⟨S850000x96, .f32⟩
  | .hbm, ⟨66, _⟩ => ⟨S_, .f32⟩
  | .hbm, ⟨67, _⟩ => ⟨S50000x96, .f32⟩
  | .hbm, ⟨68, _⟩ => ⟨S850000x1, .i32⟩
  | .hbm, ⟨69, _⟩ => ⟨S50000x96, .f32⟩
  | .hbm, ⟨70, _⟩ => ⟨S1x96, .f32⟩
  | .hbm, ⟨71, _⟩ => ⟨S50000x96, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x96, .f32⟩
  | .hbm, ⟨81, _⟩ => ⟨S850000x96, .f32⟩
  | .hbm, ⟨82, _⟩ => ⟨S850000x96, .f32⟩
  | .hbm, ⟨83, _⟩ => ⟨S_, .f32⟩
  | .hbm, ⟨84, _⟩ => ⟨S50000x96, .f32⟩
  | .hbm, ⟨85, _⟩ => ⟨S850000x1, .i32⟩
  | .hbm, ⟨86, _⟩ => ⟨S50000x96, .f32⟩
  | .hbm, ⟨87, _⟩ => ⟨S1x96, .f32⟩
  | .hbm, ⟨88, _⟩ => ⟨S50000x96, .f32⟩
  | .hbm, ⟨89, _⟩ => ⟨S_, .i32⟩
  | .hbm, ⟨90, _⟩ => ⟨S850000, .i32⟩
  | .hbm, ⟨91, _⟩ => ⟨S850000, .i1⟩
  | .hbm, ⟨92, _⟩ => ⟨S_, .i32⟩
  | .hbm, ⟨93, _⟩ => ⟨S850000, .i32⟩
  | .hbm, ⟨94, _⟩ => ⟨S850000, .i32⟩
  | .hbm, ⟨95, _⟩ => ⟨S850000, .i32⟩
  | .hbm, ⟨96, _⟩ => ⟨S850000x1, .i32⟩
  | .hbm, ⟨97, _⟩ => ⟨S850000x96, .f32⟩
  | .hbm, ⟨98, _⟩ => ⟨S850000x96, .f32⟩
  | .hbm, ⟨99, _⟩ => ⟨S850000x96, .f32⟩
  | .hbm, ⟨100, _⟩ => ⟨S_, .f32⟩
  | .hbm, ⟨101, _⟩ => ⟨S50000x96, .f32⟩
  | .hbm, ⟨102, _⟩ => ⟨S850000x1, .i32⟩
  | .hbm, ⟨103, _⟩ => ⟨S50000x96, .f32⟩
  | .hbm, ⟨104, _⟩ => ⟨S1x96, .f32⟩
  | .hbm, ⟨105, _⟩ => ⟨S1x21, .f32⟩
  | .hbm, ⟨106, _⟩ => ⟨S50000x21, .f32⟩
  | .local _ .vmem, ⟨0, _⟩ => ⟨S5000x128, .f32⟩
  | .local _ .vmem, ⟨1, _⟩ => ⟨S5000x128, .f32⟩
  | .local _ .vmem, ⟨2, _⟩ => ⟨S1x128, .f32⟩
  | .local _ .vmem, ⟨3, _⟩ => ⟨S128x96, .f32⟩
  | .local _ .vmem, ⟨4, _⟩ => ⟨S5000x96, .f32⟩
  | .local _ .vmem, ⟨5, _⟩ => ⟨S5000x96, .f32⟩
  | .local _ .vmem, ⟨6, _⟩ => ⟨S5000x96, .f32⟩
  | .local _ .vmem, ⟨7, _⟩ => ⟨S5000x96, .f32⟩
  | .local _ .vmem, ⟨8, _⟩ => ⟨S1x96, .f32⟩
  | .local _ .vmem, ⟨9, _⟩ => ⟨S96x96, .f32⟩
  | .local _ .vmem, ⟨10, _⟩ => ⟨S5000x96, .f32⟩
  | .local _ .vmem, ⟨11, _⟩ => ⟨S5000x96, .f32⟩
  | .local _ .vmem, ⟨12, _⟩ => ⟨S5000x96, .f32⟩
  | .local _ .vmem, ⟨13, _⟩ => ⟨S5000x96, .f32⟩
  | .local _ .vmem, ⟨14, _⟩ => ⟨S1x96, .f32⟩
  | .local _ .vmem, ⟨15, _⟩ => ⟨S96x96, .f32⟩
  | .local _ .vmem, ⟨16, _⟩ => ⟨S5000x96, .f32⟩
  | .local _ .vmem, ⟨17, _⟩ => ⟨S5000x96, .f32⟩
  | .local _ .vmem, ⟨18, _⟩ => ⟨S5000x96, .f32⟩
  | .local _ .vmem, ⟨19, _⟩ => ⟨S5000x96, .f32⟩
  | .local _ .vmem, ⟨20, _⟩ => ⟨S1x96, .f32⟩
  | .local _ .vmem, ⟨21, _⟩ => ⟨S96x21, .f32⟩
  | .local _ .vmem, ⟨22, _⟩ => ⟨S1x21, .f32⟩
  | .local _ .vmem, ⟨23, _⟩ => ⟨S5000x21, .f32⟩
  | .local _ .vmem, ⟨24, _⟩ => ⟨S5000x21, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_10 : Ref sig .tc := ⟨.hbm, 72, rfl⟩
abbrev main_v48 : Ref sig .tc := ⟨.hbm, 73, rfl⟩
abbrev main_v49 : Ref sig .tc := ⟨.hbm, 74, rfl⟩
abbrev main_c_11 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_12 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_c_13 : Ref sig .tc := ⟨.hbm, 89, rfl⟩
abbrev main_v62 : Ref sig .tc := ⟨.hbm, 90, rfl⟩
abbrev main_v63 : Ref sig .tc := ⟨.hbm, 91, rfl⟩
abbrev main_c_14 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_15 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg4_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem4_0 : DmaSem sig := 23
abbrev cc3_sem4_1 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S96x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x96 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x96 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S96x96 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x96 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x96 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S96x21 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x21 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x21 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S_S128 : S_.BroadcastsInDim S128 (![] : Fin 0 → Fin S128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x96_S128x96_0_0 : ∀ a, (![0, 0] : Fin 2 → Nat) a + S128x96.size a ≤ S128x96.size a
  h_S128x96 : 0 < S128x96.numel
  inb_S5000x96_S5000x96_0_0 : ∀ a, (![0, 0] : Fin 2 → Nat) a + S5000x96.size a ≤ S5000x96.size a
  h_S5000x96 : 0 < S5000x96.numel
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  shapeCasts_S96_S1x96 : S96.ShapeCasts S1x96
  shapeCasts_S5000x96_S5000x96 : S5000x96.ShapeCasts S5000x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  inb_S96x96_S96x96_0_0 : ∀ a, (![0, 0] : Fin 2 → Nat) a + S96x96.size a ≤ S96x96.size a
  h_S96x96 : 0 < S96x96.numel
  shapeCasts_S21_S1x21 : S21.ShapeCasts S1x21
  inb_S96x21_S96x21_0_0 : ∀ a, (![0, 0] : Fin 2 → Nat) a + S96x21.size a ≤ S96x21.size a
  h_S96x21 : 0 < S96x21.numel
  inb_S1x21_S1x21_0_0 : ∀ a, (![0, 0] : Fin 2 → Nat) a + S1x21.size a ≤ S1x21.size a
  h_S1x21 : 0 < S1x21.numel
  shapeCasts_S1x21_S1x21 : S1x21.ShapeCasts S1x21
  broadcasts_S1x21_S5000x21 : S1x21.Broadcasts S5000x21
  inb_S5000x21_S5000x21_0_0 : ∀ a, (![0, 0] : Fin 2 → Nat) a + S5000x21.size a ≤ S5000x21.size a
  h_S5000x21 : 0 < S5000x21.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x96_S5000x96_1_0_0_1_n_n_wf : DotDims.WF S5000x128 S128x96 S5000x96 [1] [0] [0] [1] [] []
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S5000x96_S96x96_S5000x96_1_0_0_1_n_n_wf : DotDims.WF S5000x96 S96x96 S5000x96 [1] [0] [0] [1] [] []
  dot_S5000x96_S96x21_S5000x21_1_0_0_1_n_n_wf : DotDims.WF S5000x96 S96x21 S5000x21 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x96.size a ≤ S128x96.size a
  hwx0_2 : ∀ i : grid0.Coords, EltTy.bits .f32 = 32 ∨ (Rect.block (s := S128x96) S128x96.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x96.size a ≤ S50000x96.size a
  hwx0_3 : ∀ i : grid0.Coords, EltTy.bits .f32 = 32 ∨ (Rect.block (s := S50000x96) S5000x96.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x96.size a ≤ S1x96.size a
  hwx1_1 : ∀ i : grid1.Coords, EltTy.bits .f32 = 32 ∨ (Rect.block (s := S1x96) S1x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96x96.size a ≤ S96x96.size a
  hwx1_2 : ∀ i : grid1.Coords, EltTy.bits .f32 = 32 ∨ (Rect.block (s := S96x96) S96x96.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x96.size a ≤ S50000x96.size a
  hwx1_3 : ∀ i : grid1.Coords, EltTy.bits .f32 = 32 ∨ (Rect.block (s := S50000x96) S5000x96.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x96.size a ≤ S50000x96.size a
  hwx2_0 : ∀ i : grid2.Coords, EltTy.bits .f32 = 32 ∨ (Rect.block (s := S50000x96) S5000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x96.size a ≤ S1x96.size a
  hwx2_1 : ∀ i : grid2.Coords, EltTy.bits .f32 = 32 ∨ (Rect.block (s := S1x96) S1x96.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S96x96.size a ≤ S96x96.size a
  hwx2_2 : ∀ i : grid2.Coords, EltTy.bits .f32 = 32 ∨ (Rect.block (s := S96x96) S96x96.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x96.size a ≤ S50000x96.size a
  hwx2_3 : ∀ i : grid2.Coords, EltTy.bits .f32 = 32 ∨ (Rect.block (s := S50000x96) S5000x96.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x96.size a ≤ S50000x96.size a
  hwx3_0 : ∀ i : grid3.Coords, EltTy.bits .f32 = 32 ∨ (Rect.block (s := S50000x96) S5000x96.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x96.size a ≤ S1x96.size a
  hwx3_1 : ∀ i : grid3.Coords, EltTy.bits .f32 = 32 ∨ (Rect.block (s := S1x96) S1x96.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S96x21.size a ≤ S96x21.size a
  hwx3_2 : ∀ i : grid3.Coords, EltTy.bits .f32 = 32 ∨ (Rect.block (s := S96x21) S96x21.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x21.size a ≤ S1x21.size a
  hwx3_3 : ∀ i : grid3.Coords, EltTy.bits .f32 = 32 ∨ (Rect.block (s := S1x21) S1x21.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x21.size a ≤ S50000x21.size a
  hwx3_4 : ∀ i : grid3.Coords, EltTy.bits .f32 = 32 ∨ (Rect.block (s := S50000x21) S5000x21.size (cc3_transform_4 i) (hinb3_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x96_S5000x96_1_0_0_1_n_n : DotDims S5000x128 S128x96 S5000x96 where
  lhsContracting := [1]
  rhsContracting := [0]
  lhsNonContracting := [0]
  rhsNonContracting := [1]
  lhsBatch := []
  rhsBatch := []
  wf := dot_S5000x128_S128x96_S5000x96_1_0_0_1_n_n_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def dot_S5000x96_S96x21_S5000x21_1_0_0_1_n_n : DotDims S5000x96 S96x21 S5000x21 where
  lhsContracting := [1]
  rhsContracting := [0]
  lhsNonContracting := [0]
  rhsNonContracting := [1]
  lhsBatch := []
  rhsBatch := []
  wf := dot_S5000x96_S96x21_S5000x21_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S5000x96.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v45) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S96x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x96.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v59) S5000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S1x96.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S96x96.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S5000x96.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v73) S5000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S1x96.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S96x21.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v75) S1x21.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v76) S5000x21.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x96 : Shape := ⟨2, ![128, 96]⟩
abbrev S96 : Shape := ⟨1, ![96]⟩
abbrev S96x96 : Shape := ⟨2, ![96, 96]⟩
abbrev S96x21 : Shape := ⟨2, ![96, 21]⟩
abbrev S21 : Shape := ⟨1, ![21]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x96 : Shape := ⟨2, ![50000, 96]⟩
abbrev S850000x96 : Shape := ⟨2, ![850000, 96]⟩
abbrev S1x96 : Shape := ⟨2, ![1, 96]⟩
abbrev S50000x21 : Shape := ⟨2, ![50000, 21]⟩
abbrev S1x21 : Shape := ⟨2, ![1, 21]⟩

abbrev nBuf : Space → Nat
  | .hbm => 138
  | .vmem => 0
  | .smem => 0
  | _ => 0

abbrev hbmTy0_0 (i : Nat) : BufTy := match i % 128 with
  | 0 => ⟨S50000x128, .f32⟩
  | 1 => ⟨S2x800000, .i32⟩
  | 2 => ⟨S128x96, .f32⟩
  | 3 => ⟨S96, .f32⟩
  | 4 => ⟨S96x96, .f32⟩
  | 5 => ⟨S96, .f32⟩
  | 6 => ⟨S96x96, .f32⟩
  | 7 => ⟨S96, .f32⟩
  | 8 => ⟨S96x21, .f32⟩
  | 9 => ⟨S21, .f32⟩
  | 10 => ⟨S50000, .i32⟩
  | 11 => ⟨S1x800000, .i32⟩
  | 12 => ⟨S800000, .i32⟩
  | 13 => ⟨S850000, .i32⟩
  | 14 => ⟨S1x800000, .i32⟩
  | 15 => ⟨S800000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S50000x96, .f32⟩
  | 51 => ⟨S850000x1, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x96, .f32⟩
  | 61 => ⟨S850000x96, .f32⟩
  | 62 => ⟨S850000x96, .f32⟩
  | 63 => ⟨S_, .f32⟩
  | 64 => ⟨S50000x96, .f32⟩
  | 65 => ⟨S850000x1, .i32⟩
  | 66 => ⟨S50000x96, .f32⟩
  | 67 => ⟨S1x96, .f32⟩
  | 68 => ⟨S50000x96, .f32⟩
  | 69 => ⟨S50000x96, .f32⟩
  | 70 => ⟨S_, .f32⟩
  | 71 => ⟨S_, .f32⟩
  | 72 => ⟨S50000x96, .f32⟩
  | 73 => ⟨S50000x96, .i1⟩
  | 74 => ⟨S_, .f32⟩
  | 75 => ⟨S50000x96, .f32⟩
  | 76 => ⟨S50000x96, .f32⟩
  | 77 => ⟨S50000x96, .f32⟩
  | 78 => ⟨S50000x96, .f32⟩
  | 79 => ⟨S850000x1, .f32⟩
  | 80 => ⟨S_, .i32⟩
  | 81 => ⟨S850000, .i32⟩
  | 82 => ⟨S850000, .i1⟩
  | 83 => ⟨S_, .i32⟩
  | 84 => ⟨S850000, .i32⟩
  | 85 => ⟨S850000, .i32⟩
  | 86 => ⟨S850000, .i32⟩
  | 87 => ⟨S850000x1, .i32⟩
  | 88 => ⟨S850000x96, .f32⟩
  | 89 => ⟨S850000x96, .f32⟩
  | 90 => ⟨S850000x96, .f32⟩
  | 91 => ⟨S_, .f32⟩
  | 92 => ⟨S50000x96, .f32⟩
  | 93 => ⟨S850000x1, .i32⟩
  | 94 => ⟨S50000x96, .f32⟩
  | 95 => ⟨S1x96, .f32⟩
  | 96 => ⟨S50000x96, .f32⟩
  | 97 => ⟨S50000x96, .f32⟩
  | 98 => ⟨S_, .f32⟩
  | 99 => ⟨S_, .f32⟩
  | 100 => ⟨S50000x96, .f32⟩
  | 101 => ⟨S50000x96, .i1⟩
  | 102 => ⟨S_, .f32⟩
  | 103 => ⟨S50000x96, .f32⟩
  | 104 => ⟨S50000x96, .f32⟩
  | 105 => ⟨S50000x96, .f32⟩
  | 106 => ⟨S50000x96, .f32⟩
  | 107 => ⟨S850000x1, .f32⟩
  | 108 => ⟨S_, .i32⟩
  | 109 => ⟨S850000, .i32⟩
  | 110 => ⟨S850000, .i1⟩
  | 111 => ⟨S_, .i32⟩
  | 112 => ⟨S850000, .i32⟩
  | 113 => ⟨S850000, .i32⟩
  | 114 => ⟨S850000, .i32⟩
  | 115 => ⟨S850000x1, .i32⟩
  | 116 => ⟨S850000x96, .f32⟩
  | 117 => ⟨S850000x96, .f32⟩
  | 118 => ⟨S850000x96, .f32⟩
  | 119 => ⟨S_, .f32⟩
  | 120 => ⟨S50000x96, .f32⟩
  | 121 => ⟨S850000x1, .i32⟩
  | 122 => ⟨S50000x96, .f32⟩
  | 123 => ⟨S1x96, .f32⟩
  | 124 => ⟨S50000x96, .f32⟩
  | 125 => ⟨S50000x96, .f32⟩
  | 126 => ⟨S_, .f32⟩
  | 127 => ⟨S_, .f32⟩
  | _ => ⟨S50000x128, .f32⟩

abbrev hbmTy0_1 (i : Nat) : BufTy := match i % 128 with
  | 0 => ⟨S50000x96, .f32⟩
  | 1 => ⟨S50000x96, .i1⟩
  | 2 => ⟨S_, .f32⟩
  | 3 => ⟨S50000x96, .f32⟩
  | 4 => ⟨S50000x96, .f32⟩
  | 5 => ⟨S50000x96, .f32⟩
  | 6 => ⟨S50000x21, .f32⟩
  | 7 => ⟨S1x21, .f32⟩
  | 8 => ⟨S50000x21, .f32⟩
  | 9 => ⟨S50000x21, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_9 : Ref sig .tc := ⟨.hbm, 70, rfl⟩
abbrev main_call1_cst : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_c_10 : Ref sig .tc := ⟨.hbm, 80, rfl⟩
abbrev main_v50 : Ref sig .tc := ⟨.hbm, 81, rfl⟩
abbrev main_v51 : Ref sig .tc := ⟨.hbm, 82, rfl⟩
abbrev main_c_11 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_12 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_13 : Ref sig .tc := ⟨.hbm, 98, rfl⟩
abbrev main_call2_cst : Ref sig .tc := ⟨.hbm, 99, rfl⟩
abbrev main_call2_v0 : Ref sig .tc := ⟨.hbm, 100, rfl⟩
abbrev main_call2_v1 : Ref sig .tc := ⟨.hbm, 101, rfl⟩
abbrev main_call2_v2 : Ref sig .tc := ⟨.hbm, 102, rfl⟩
abbrev main_call2_v3 : Ref sig .tc := ⟨.hbm, 103, rfl⟩
abbrev main_call2_v4 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_c_14 : Ref sig .tc := ⟨.hbm, 108, rfl⟩
abbrev main_v68 : Ref sig .tc := ⟨.hbm, 109, rfl⟩
abbrev main_v69 : Ref sig .tc := ⟨.hbm, 110, rfl⟩
abbrev main_c_15 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_cst_16 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_cst_17 : Ref sig .tc := ⟨.hbm, 126, rfl⟩
abbrev main_call3_cst : Ref sig .tc := ⟨.hbm, 127, rfl⟩
abbrev main_call3_v0 : Ref sig .tc := ⟨.hbm, 128, rfl⟩
abbrev main_call3_v1 : Ref sig .tc := ⟨.hbm, 129, rfl⟩
abbrev main_call3_v2 : Ref sig .tc := ⟨.hbm, 130, rfl⟩
abbrev main_call3_v3 : Ref sig .tc := ⟨.hbm, 131, rfl⟩
abbrev main_call3_v4 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S21_S1x21_1 : S21.BroadcastsInDim S1x21 (![1] : Fin 1 → Fin S1x21.rank)
  bcast_S1x21_S50000x21_0_1 : S1x21.BroadcastsInDim S50000x21 (![0, 1] : Fin 2 → Fin S50000x21.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x96_S50000x96_1_0_0_1_n_n_wf : DotDims.WF S50000x128 S128x96 S50000x96 [1] [0] [0] [1] [] []
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S50000x96_S96x96_S50000x96_1_0_0_1_n_n_wf : DotDims.WF S50000x96 S96x96 S50000x96 [1] [0] [0] [1] [] []
  dot_S50000x96_S96x21_S50000x21_1_0_0_1_n_n_wf : DotDims.WF S50000x96 S96x21 S50000x21 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x96_S50000x96_1_0_0_1_n_n : DotDims S50000x128 S128x96 S50000x96 where
  lhsContracting := [1]
  rhsContracting := [0]
  lhsNonContracting := [0]
  rhsNonContracting := [1]
  lhsBatch := []
  rhsBatch := []
  wf := dot_S50000x128_S128x96_S50000x96_1_0_0_1_n_n_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def dot_S50000x96_S96x21_S50000x21_1_0_0_1_n_n : DotDims S50000x96 S96x21 S50000x21 where
  lhsContracting := [1]
  rhsContracting := [0]
  lhsNonContracting := [0]
  rhsNonContracting := [1]
  lhsBatch := []
  rhsBatch := []
  wf := dot_S50000x96_S96x21_S50000x21_1_0_0_1_n_n_wf

class Facts : Prop extends Facts₀ where

variable [Facts]
-- ==== Proof.KRun.lean ====
/-
  The idealized kernel's run with its result named: every weakly fair execution of the program terminates without a
  fault, the result array ends holding what the last boundary's contents hold at it, and the argument arrays end as
  launched.  The run is the chain of the program's segments, host stretches and kernel regions alternating; the contents
  at each boundary are a fold from the launch memory, and the final state is read against the last one.
-/
import proofs.«102307_j46583215292438_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array read off the last boundary's contents. -/
theorem run_value : θ_run defs (onTc (τ := τ) (main (F := F))) ⟨m, fun _ => 0, ρ⟩ (fun r => ∀ c : Dev nD,
      r.2.mem ((c.tc : Thread nD τ).loc main_v76) = W10 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v76 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c)⟩)

end Cert.KernelIdeal.Gen

end
-- ==== Proof.KAgg.lean ====
/-
  The graph side of a layer, as the host spells it: from the edge list (two rows of node numbers) the source and the
  target of every edge, with one self-loop per node appended; the in-degree of every node as a sum of ones over the
  edges that arrive at it; its inverse square root where positive and zero elsewhere; an edge's weight, the product of
  that factor at its two ends; and the aggregation of a feature array: every edge carries its source's row times
  its weight to its target, where the arriving rows are summed.  A negative node number counts from the end
  (`wrap`), as an indexing of an array does.
-/
import proofs.«102307_j46583215292438_1_alg».proof.Proof.Gen.KernelIdeal
import Idealize.ShloMosaic.PureOps.Ideal

noncomputable section

namespace Cert.KernelIdeal.Agg

open Idealize.ShloMosaic Cert.KernelIdeal Cert.KernelIdeal.Facts₀ Cert.KernelIdeal.Facts

/-- The node numbers `0 … 49999`: the self-loops. -/
def loops : IVec S50000 32 := iotaInDim S50000 32 0

/-- Row `r` of the edge list followed by the self-loops. -/
def ends0 (ei : IVec S2x800000 32) : IVec S850000 32 :=
  concatenate S850000 0 [⟨S800000, shapeCast S800000 (extractStridedSlice S1x800000 ![0, 0] ei slices_S2x800000_S1x800000_0_0) shapeCasts_S1x800000_S800000⟩, ⟨S50000, loops⟩] concatenates_S800000_S50000_S850000_d0

def ends1 (ei : IVec S2x800000 32) : IVec S850000 32 :=
  concatenate S850000 0 [⟨S800000, shapeCast S800000 (extractStridedSlice S1x800000 ![1, 0] ei slices_S2x800000_S1x800000_1_0) shapeCasts_S1x800000_S800000⟩, ⟨S50000, loops⟩] concatenates_S800000_S50000_S850000_d0

/-- A vector of per-edge values as one column. -/
def col {α : Type} (v : S850000.Idx → α) : S850000x1.Idx → α := broadcastInDim S850000x1 ![0] bcast_S850000_S850000x1_0 v

/-- A negative node number counts from the end. -/
def wrap (v : IVec S850000 32) : IVec S850000 32 :=
  select (cmpi .slt v (broadcastInDim S850000 ![] bcast_S_S850000 (constantI S_ 32 0#32)))
    (addi v (broadcastInDim S850000 ![] bcast_S_S850000 (constantI S_ 32 50000#32))) v

/-- The in-degree, self-loop included: ones summed at every edge's target. -/
def deg (ei : IVec S2x800000 32) : FVec Ideal S50000 .f32 :=
  Host.scatterAdd (F := Ideal) scatter_S50000_S850000x1_S850000_n_0_0_1
    (broadcastInDim S50000 ![] bcast_S_S50000 (constant (F := Ideal) S_ .f32 0x00000000#32))
    (col (ends1 ei))
    (broadcastInDim S850000 ![] bcast_S_S850000 (constant (F := Ideal) S_ .f32 0x3F800000#32))

/-- The inverse square root of the degree where it is positive, zero elsewhere. -/
def dinv (ei : IVec S2x800000 32) : FVec Ideal S50000 .f32 :=
  select (cmpf .ogt (deg ei) (broadcastInDim S50000 ![] bcast_S_S50000 (constant (F := Ideal) S_ .f32 0x00000000#32)))
    (Host.rsqrt (F := Ideal) (deg ei))
    (broadcastInDim S50000 ![] bcast_S_S50000 (constant (F := Ideal) S_ .f32 0x00000000#32))

/-- An edge's weight: the factor at its source times the factor at its target. -/
def nrm (ei : IVec S2x800000 32) : FVec Ideal S850000 .f32 :=
  mulf (Host.gather gather_S50000_S850000x1_S850000_n_0_n_n_0_1_1 (dinv ei) (col (wrap (ends0 ei))))
    (Host.gather gather_S50000_S850000x1_S850000_n_0_n_n_0_1_1 (dinv ei) (col (wrap (ends1 ei))))

/-- The aggregation of a feature array over the graph. -/
def agg (ei : IVec S2x800000 32) (z : FVec Ideal S50000x96 .f32) : FVec Ideal S50000x96 .f32 :=
  Host.scatterAdd (F := Ideal) scatter_S50000x96_S850000x1_S850000x96_1_0_0_1
    (broadcastInDim S50000x96 ![] bcast_S_S50000x96 (constant (F := Ideal) S_ .f32 0x00000000#32))
    (col (ends1 ei))
    (mulf (broadcastInDim S850000x96 ![0, 1] bcast_S850000x1_S850000x96_0_1 (col (nrm ei)))
      (Host.gather gather_S50000x96_S850000x1_S850000x96_1_0_n_n_0_1_196 z (col (wrap (ends0 ei)))))

end Cert.KernelIdeal.Agg

end
-- ==== Proof.LibTypedRef.lean ====
/-
  Typed references: a value carried to a buffer's own type and back is the value.

  A host operation of a called function is stated over typed references: a reference together with the equation that
  its buffer's type is the value's type. The operation's function is conjugated by the transport along that equation
  (`toBuf` into the buffer's type, `ofBuf` out of it). Reading a chain of such operations back therefore leaves
  pairs `ofBuf (toBuf v)` around every intermediate value; each pair is the identity.
-/
import Idealize.ShloMosaic.Lib.StableHlo

namespace Cert.TypedRef

open Idealize.ShloMosaic Idealize.ShloMosaic.StableHlo

/-- Carrying a value to the buffer's type and back gives the value. -/
theorem ofBuf_toBuf {sig : RefSig} {T : BufTy} {Val : EltTy → Type} (x : TRef sig T) (v : T.Contents Val) :
    x.ofBuf (x.toBuf v) = v := by
  obtain ⟨r, h, a, b⟩ := x
  subst h
  rfl

/-- Carrying a buffer's contents to the value's type and back gives the contents. -/
theorem toBuf_ofBuf {sig : RefSig} {T : BufTy} {Val : EltTy → Type} (x : TRef sig T) (v : x.ref.ty.Contents Val) :
    x.toBuf (x.ofBuf v) = v := by
  obtain ⟨r, h, a, b⟩ := x
  subst h
  rfl

end Cert.TypedRef
-- ==== Proof.KHost.lean ====
/-
  The host stretches of the idealized kernel's program, read back one at a time over an arbitrary valuation of the
  buffers: what each stretch leaves in the buffers the next region or stretch reads, as the graph-side functions of
  the edge list (sources, targets, edge weights) and the aggregation of a feature array; and which buffers a
  stretch leaves alone.
-/
import proofs.«102307_j46583215292438_1_alg».proof.Proof.Gen.KernelIdeal.Frame
import proofs.«102307_j46583215292438_1_alg».proof.Proof.KAgg
import proofs.«102307_j46583215292438_1_alg».proof.Proof.LibTypedRef

set_option maxRecDepth 16384

noncomputable section

namespace Cert.KernelIdeal.KHost

open Idealize.ShloMosaic Idealize.ShloMosaic.StableHlo Idealize.ShloMosaic.TcCoe Cert.KernelIdeal Cert.KernelIdeal.Facts₀ Cert.KernelIdeal.Facts

/-- The aggregation over explicit sources, targets and a column of edge weights. -/
def aggOf (src tgt : IVec S850000 32) (ncol : FVec Ideal S850000x1 .f32) (z : FVec Ideal S50000x96 .f32) : FVec Ideal S50000x96 .f32 :=
  Host.scatterAdd (F := Ideal) scatter_S50000x96_S850000x1_S850000x96_1_0_0_1
    (broadcastInDim S50000x96 ![] bcast_S_S50000x96 (constant (F := Ideal) S_ .f32 0x00000000#32))
    (Agg.col tgt)
    (mulf (broadcastInDim S850000x96 ![0, 1] bcast_S850000x1_S850000x96_0_1 ncol)
      (Host.gather gather_S50000x96_S850000x1_S850000x96_1_0_n_n_0_1_196 z (Agg.col (Agg.wrap src))))

theorem aggOf_eq (ei : IVec S2x800000 32) (z : FVec Ideal S50000x96 .f32) :
    aggOf (Agg.ends0 ei) (Agg.ends1 ei) (Agg.col (Agg.nrm ei)) z = Agg.agg ei z := rfl

/-- The edge weights over explicit sources, targets and per-node factors, as a column. -/
def ncolOf (src tgt : IVec S850000 32) (d : FVec Ideal S50000 .f32) : FVec Ideal S850000x1 .f32 :=
  Agg.col (mulf (Host.gather gather_S50000_S850000x1_S850000_n_0_n_n_0_1_1 d (Agg.col (Agg.wrap src)))
    (Host.gather gather_S50000_S850000x1_S850000_n_0_n_n_0_1_1 d (Agg.col (Agg.wrap tgt))))

theorem ncolOf_eq (ei : IVec S2x800000 32) : ncolOf (Agg.ends0 ei) (Agg.ends1 ei) (Agg.dinv ei) = Agg.col (Agg.nrm ei) := rfl

variable (W : Valuation τ sig (Elt Ideal))

/-! ## The first stretch: the edges' ends, the degree's comparison and inverse square root -/

theorem s0_v3 : after Gen.hostOps0 W (Proc.devRef .tc main_v3) = Agg.ends0 (W (Proc.devRef .tc main_arg1)) := by
  after_results
  rfl
theorem s0_v6 : after Gen.hostOps0 W (Proc.devRef .tc main_v6) = Agg.ends1 (W (Proc.devRef .tc main_arg1)) := by
  after_results
  rfl
theorem s0_v12 : after Gen.hostOps0 W (Proc.devRef .tc main_v12) = cmpf .ogt (Agg.deg (W (Proc.devRef .tc main_arg1))) (broadcastInDim S50000 ![] bcast_S_S50000 (constant (F := Ideal) S_ .f32 0x00000000#32)) := by
  after_results
  rfl
theorem s0_v13 : after Gen.hostOps0 W (Proc.devRef .tc main_v13) = Host.rsqrt (F := Ideal) (Agg.deg (W (Proc.devRef .tc main_arg1))) := by
  after_results
  rfl
theorem s0_cst2 : after Gen.hostOps0 W (Proc.devRef .tc main_cst_2) = constant (F := Ideal) S_ .f32 0x00000000#32 := by
  after_results

/-! ## The selection of the inverse square root where the degree is positive -/

theorem s01_v14 : after Gen.hostOps0_1 W (Proc.devRef .tc main_v14)
    = select (W (Proc.devRef .tc main_v12)) (W (Proc.devRef .tc main_v13)) (broadcastInDim S50000 ![] bcast_S_S50000 (W (Proc.devRef .tc main_cst_2))) := by
  after_results
  simp only [Cert.TypedRef.ofBuf_toBuf]
  rfl

/-! ## The edge weights -/

set_option maxHeartbeats 1000000 in
theorem s02_v30 : after Gen.hostOps0_2 W (Proc.devRef .tc main_v30) = ncolOf (W (Proc.devRef .tc main_v3)) (W (Proc.devRef .tc main_v6)) (W (Proc.devRef .tc main_v14)) := by
  after_results_simp
  rfl

/-! ## The aggregations and the bias rows between the regions -/

set_option maxHeartbeats 1000000 in
theorem s1_v45 : after Gen.hostOps1 W (Proc.devRef .tc main_v45) = aggOf (W (Proc.devRef .tc main_v3)) (W (Proc.devRef .tc main_v6)) (W (Proc.devRef .tc main_v30)) (W (Proc.devRef .tc main_v33)) := by
  after_results_simp
  rfl
theorem s1_v46 : after Gen.hostOps1 W (Proc.devRef .tc main_v46) = shapeCast S1x96 (W (Proc.devRef .tc main_arg3)) shapeCasts_S96_S1x96 := by
  after_results
  rfl
set_option maxHeartbeats 1000000 in
theorem s2_v59 : after Gen.hostOps2 W (Proc.devRef .tc main_v59) = aggOf (W (Proc.devRef .tc main_v3)) (W (Proc.devRef .tc main_v6)) (W (Proc.devRef .tc main_v30)) (W (Proc.devRef .tc main_v47)) := by
  after_results_simp
  rfl
theorem s2_v60 : after Gen.hostOps2 W (Proc.devRef .tc main_v60) = shapeCast S1x96 (W (Proc.devRef .tc main_arg5)) shapeCasts_S96_S1x96 := by
  after_results
  rfl
set_option maxHeartbeats 1000000 in
theorem s3_v73 : after Gen.hostOps3 W (Proc.devRef .tc main_v73) = aggOf (W (Proc.devRef .tc main_v3)) (W (Proc.devRef .tc main_v6)) (W (Proc.devRef .tc main_v30)) (W (Proc.devRef .tc main_v61)) := by
  after_results_simp
  rfl
theorem s3_v74 : after Gen.hostOps3 W (Proc.devRef .tc main_v74) = shapeCast S1x96 (W (Proc.devRef .tc main_arg7)) shapeCasts_S96_S1x96 := by
  after_results
  rfl
theorem s3_v75 : after Gen.hostOps3 W (Proc.devRef .tc main_v75) = shapeCast S1x21 (W (Proc.devRef .tc main_arg9)) shapeCasts_S21_S1x21 := by
  after_results
  rfl

/-! ## What each stretch leaves alone -/

/-- The buffers the stretch writes. -/
abbrev hostOps0_W : List (Ref sig .tc) := [main_v0, main_v1, main_v2, main_v3, main_v4, main_v5, main_v6, main_cst, main_v7, main_cst_0, main_v8, main_v9, main_v10, main_cst_1, main_v11, main_v12, main_v13, main_cst_2]
theorem hostOps0_writes : (Gen.hostOps0 : List (HloOp τ sig (Elt Ideal))).Forall fun op => op.writes ⊆ (hostOps0_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the stretch does not write keeps its contents through it. -/
theorem hostOps0_keep (r : Ref sig .tc) (h : r ∉ hostOps0_W) : after Gen.hostOps0 W (Proc.devRef .tc r) = W (Proc.devRef .tc r) :=
  after_of_writes_sub Gen.hostOps0 W hostOps0_writes h

/-- The buffers the stretch writes. -/
abbrev hostOps0_2_W : List (Ref sig .tc) := [main_c, main_v15, main_v16, main_c_3, main_v17, main_v18, main_v19, main_v20, main_v21, main_c_4, main_v22, main_v23, main_c_5, main_v24, main_v25, main_v26, main_v27, main_v28, main_v29, main_v30, main_cst_6, main_v31, main_v32]
theorem hostOps0_2_writes : (Gen.hostOps0_2 : List (HloOp τ sig (Elt Ideal))).Forall fun op => op.writes ⊆ (hostOps0_2_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the stretch does not write keeps its contents through it. -/
theorem hostOps0_2_keep (r : Ref sig .tc) (h : r ∉ hostOps0_2_W) : after Gen.hostOps0_2 W (Proc.devRef .tc r) = W (Proc.devRef .tc r) :=
  after_of_writes_sub Gen.hostOps0_2 W hostOps0_2_writes h

/-- The buffers the stretch writes. -/
abbrev hostOps1_W : List (Ref sig .tc) := [main_c_7, main_v34, main_v35, main_c_8, main_v36, main_v37, main_v38, main_v39, main_v40, main_v41, main_v42, main_cst_9, main_v43, main_v44, main_v45, main_v46]
theorem hostOps1_writes : (Gen.hostOps1 : List (HloOp τ sig (Elt Ideal))).Forall fun op => op.writes ⊆ (hostOps1_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the stretch does not write keeps its contents through it. -/
theorem hostOps1_keep (r : Ref sig .tc) (h : r ∉ hostOps1_W) : after Gen.hostOps1 W (Proc.devRef .tc r) = W (Proc.devRef .tc r) :=
  after_of_writes_sub Gen.hostOps1 W hostOps1_writes h

/-- The buffers the stretch writes. -/
abbrev hostOps2_W : List (Ref sig .tc) := [main_c_10, main_v48, main_v49, main_c_11, main_v50, main_v51, main_v52, main_v53, main_v54, main_v55, main_v56, main_cst_12, main_v57, main_v58, main_v59, main_v60]
theorem hostOps2_writes : (Gen.hostOps2 : List (HloOp τ sig (Elt Ideal))).Forall fun op => op.writes ⊆ (hostOps2_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the stretch does not write keeps its contents through it. -/
theorem hostOps2_keep (r : Ref sig .tc) (h : r ∉ hostOps2_W) : after Gen.hostOps2 W (Proc.devRef .tc r) = W (Proc.devRef .tc r) :=
  after_of_writes_sub Gen.hostOps2 W hostOps2_writes h

/-- The buffers the stretch writes. -/
abbrev hostOps3_W : List (Ref sig .tc) := [main_c_13, main_v62, main_v63, main_c_14, main_v64, main_v65, main_v66, main_v67, main_v68, main_v69, main_v70, main_cst_15, main_v71, main_v72, main_v73, main_v74, main_v75]
theorem hostOps3_writes : (Gen.hostOps3 : List (HloOp τ sig (Elt Ideal))).Forall fun op => op.writes ⊆ (hostOps3_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the stretch does not write keeps its contents through it. -/
theorem hostOps3_keep (r : Ref sig .tc) (h : r ∉ hostOps3_W) : after Gen.hostOps3 W (Proc.devRef .tc r) = W (Proc.devRef .tc r) :=
  after_of_writes_sub Gen.hostOps3 W hostOps3_writes h

/-- The selection writes three buffers of its own. -/
theorem hostOps0_1_keep (r : Ref sig .tc) (h0 : r ≠ main_call0_v0) (h1 : r ≠ main_call0_v1) (h2 : r ≠ main_v14) :
    after Gen.hostOps0_1 W (Proc.devRef .tc r) = W (Proc.devRef .tc r) :=
  after_of_forall_not_mem (b := Proc.devRef .tc r) _ _ (List.forall_iff_forall_mem.mp (by
    simp only [Gen.hostOps0_1, List.Forall, nullary_writes, unary_writes, binary_writes, ternary_writes, quaternary_writes, reshape_writes, Finset.mem_singleton]
    exact ⟨devRef_ne_of_ne h0, devRef_ne_of_ne h1, devRef_ne_of_ne h2⟩))

end Cert.KernelIdeal.KHost

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.LibBiasRow.lean ====
/-
  A one-row bias added to every row of a rank-2 array, on the extended reals, at any extents.

  `addRow X b` is `X(p, q) + b(0, q)`.  The vector unit spells it as the row broadcast along the rows and added; the
  host as the vector broadcast to one row, that row broadcast to every row, and added.  Both are `addRow`, the host's
  over the vector laid out as a row (`Cert.Dense.row`).  The entry at `(p, q)` depends on the entry of `X` there and
  on entry `q` of the bias only (`addRow_at`; `reluBias_at` for the rectified layer, `mm_at` for the matrix product, whose
  entry depends on one row of the left operand), which is what reading a block of rows against the whole array needs.
-/
import proofs.«102307_j46583215292438_1_alg».proof.Proof.LibDense

noncomputable section

namespace Cert.BiasRow

open Idealize.ShloMosaic Idealize.ShloMosaic.ValueIdx Cert.Dense

/-- A one-row array added to every row. -/
def addRow {M N : ℕ} (X : Mat M N) (b : Mat 1 N) : Mat M N := fun i => X i + b (ix2 (0 : Fin 1) (c1 i))

theorem addRow_apply {M N : ℕ} (X : Mat M N) (b : Mat 1 N) (p : Fin M) (q : Fin N) :
    addRow X b (ix2 p q) = X (ix2 p q) + b (ix2 (0 : Fin 1) q) := rfl

/-- The vector unit's form: the row broadcast to every row, added. -/
theorem vecAddRow {M N : ℕ} (X : FVec Ideal ⟨2, ![M, N]⟩ .f32) (b : FVec Ideal ⟨2, ![1, N]⟩ .f32)
    (h : (⟨2, ![1, N]⟩ : Shape).Broadcasts ⟨2, ![M, N]⟩) :
    addf X (broadcastTo ⟨2, ![M, N]⟩ b h) = addRow X b := by
  funext i
  obtain ⟨p, q, rfl⟩ : ∃ (p : Fin M) (q : Fin N), i = ix2 p q := ⟨i 0, i 1, eq_ix2 i⟩
  show X (ix2 p q) + broadcastTo ⟨2, ![M, N]⟩ b h (ix2 p q) = _
  rw [broadcastTo_1b_ab_apply]
  rfl

/-- The host's form: the vector broadcast to one row, that row to every row, added. -/
theorem hostAddRow {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 b)) = addRow X (row b) := by
  funext i
  obtain ⟨p, q, rfl⟩ : ∃ (p : Fin M) (q : Fin N), i = ix2 p q := ⟨i 0, i 1, eq_ix2 i⟩
  show X (ix2 p q) + broadcastInDim ⟨2, ![M, N]⟩ ![0, 1] h2 (broadcastInDim ⟨2, ![1, N]⟩ ![1] h1 b) (ix2 p q) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]
  rfl

/-- The biased array at an index depends on the entry there and on the bias of its column. -/
theorem addRow_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    addRow X' b' j = addRow X b i := by
  unfold addRow; rw [hX, hb]

/-- The rectified bias layer at an index depends on the entry there and on the bias of its column. -/
theorem reluBias_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    reluBias X' b' j = reluBias X b i := by
  unfold reluBias; rw [hX, hb]

/-- The matrix product at an index depends on one row of the left operand and one column of the right one. -/
theorem mm_at {M M' K N N' : ℕ} (A : Mat M K) (B : Mat K N) (A' : Mat M' K) (B' : Mat K N')
    (j : (⟨2, ![M', N']⟩ : Shape).Idx) (i : (⟨2, ![M, N]⟩ : Shape).Idx)
    (hA : ∀ k : Fin K, A' (ix2 (c0 j) k) = A (ix2 (c0 i) k))
    (hB : ∀ k : Fin K, B' (ix2 k (c1 j)) = B (ix2 k (c1 i))) : mm A' B' j = mm A B i :=
  Finset.sum_congr rfl fun k _ => by rw [hA k, hB k]

end Cert.BiasRow

end
-- ==== Proof.LibLeakyGcn.lean ====
/-
  A three-layer graph convolution with leaky rectifiers and a linear head, on the extended reals.

  Every layer is a dense product of the node features with a weight matrix followed by an aggregation over the
  graph; the aggregation is kept here as an ARBITRARY map `agg` of whole feature arrays, since both programs
  apply the same one.  With `lrelu` the leaky rectifier (slope the f32 word 0x3C23D70A, about 0.01),

    net agg x W1 b1 W2 b2 W3 b3 Wl bl
      = lrelu (agg (lrelu (agg (lrelu (agg (x W1)) + b1) W2) + b2) W3) + b3) Wl + bl

  grouped as one product first, then two layers "add the previous bias, rectify, multiply", then the head, which
  also adds its own bias.  An entry of a layer's result depends on ONE row of the layer's input (row locality),
  which is what reading a block of rows against the whole array needs.
-/
import proofs.«102307_j46583215292438_1_alg».proof.Proof.LibDense
import proofs.«102307_j46583215292438_1_alg».proof.Proof.LibBiasRow

noncomputable section

namespace Cert.Gcn3

open Idealize.ShloMosaic Idealize.ShloMosaic.ValueIdx Cert.Dense Cert.BiasRow

/-- The leaky rectifier `x ↦ if x ≥ 0 then x else slope · x`, entry by entry, any shape. -/
def lrelu {S : Shape} (X : FVec Ideal S .f32) : FVec Ideal S .f32 :=
  select (cmpf .oge X (broadcast S (Scalar.ofBits (F := Ideal) .f32 0x00000000#32))) X
    (mulf (broadcast S (Scalar.ofBits (F := Ideal) .f32 0x3C23D70A#32)) X)

/-- The rectifier's value at an index depends on the entry there only. -/
theorem lrelu_at {S S' : Shape} (X : FVec Ideal S .f32) (X' : FVec Ideal S' .f32) (i : S.Idx) (j : S'.Idx)
    (h : X' j = X i) : lrelu X' j = lrelu X i := by
  unfold lrelu select cmpf mulf broadcast
  rw [h]

/-- The host's spelling of the rectifier: the comparison against a broadcast scalar zero, the product with the
    broadcast scalar slope, the selection. -/
theorem hostLrelu {S : Shape} (A : FVec Ideal S .f32) (h0 : (⟨0, ![]⟩ : Shape).BroadcastsInDim S ![]) :
    select (cmpf .oge A (broadcastInDim S ![] h0 (constant (F := Ideal) ⟨0, ![]⟩ .f32 0x00000000#32))) A
      (mulf (broadcastInDim S ![] h0 (constant (F := Ideal) ⟨0, ![]⟩ .f32 0x3C23D70A#32)) A) = lrelu A := by
  funext i
  unfold lrelu select cmpf mulf broadcast
  rw [broadcastInDim_apply ![] h0 _ i ix0 (fun a => a.elim0), broadcastInDim_apply ![] h0 _ i ix0 (fun a => a.elim0)]
  rfl

/-- A middle layer: add the previous layer's bias row, rectify, multiply by the weights. -/
def layerMid {N C C' : ℕ} (A : Mat N C) (b : Mat 1 C) (W : Mat C C') : Mat N C' := mm (lrelu (addRow A b)) W

/-- The head: a middle layer followed by its own bias row. -/
def layerOut {N C C' : ℕ} (A : Mat N C) (b : Mat 1 C) (W : Mat C C') (bl : Mat 1 C') : Mat N C' :=
  addRow (layerMid A b W) bl

/-- The whole network over an arbitrary aggregation map. -/
def net {N C0 C C' : ℕ} (agg : Mat N C → Mat N C) (x : Mat N C0) (W1 : Mat C0 C) (b1 : Mat 1 C) (W2 : Mat C C) (b2 : Mat 1 C)
    (W3 : Mat C C) (b3 : Mat 1 C) (Wl : Mat C C') (bl : Mat 1 C') : Mat N C' :=
  layerOut (agg (layerMid (agg (layerMid (agg (mm x W1)) b1 W2)) b2 W3)) b3 Wl bl

/-- Row locality of a middle layer: the entry at `j` of the layer over `A'` is the entry at `i` of the layer over `A`
    when row `c0 j` of `A'` is row `c0 i` of `A`, the bias rows agree and column `c1 j` of `W'` is column `c1 i` of `W`. -/
theorem layerMid_at {N N' C C' C'' : ℕ} (A : Mat N C) (b : Mat 1 C) (W : Mat C C') (A' : Mat N' C) (b' : Mat 1 C) (W' : Mat C C'')
    (j : (⟨2, ![N', C'']⟩ : Shape).Idx) (i : (⟨2, ![N, C']⟩ : Shape).Idx)
    (hA : ∀ k : Fin C, A' (ix2 (c0 j) k) = A (ix2 (c0 i) k))
    (hb : ∀ k : Fin C, b' (ix2 (0 : Fin 1) k) = b (ix2 (0 : Fin 1) k))
    (hW : ∀ k : Fin C, W' (ix2 k (c1 j)) = W (ix2 k (c1 i))) :
    layerMid A' b' W' j = layerMid A b W i :=
  mm_at _ _ _ _ j i (fun k => lrelu_at _ _ _ _ (addRow_at A b A' b' _ _ (hA k) (hb k))) hW

/-- Row locality of the head. -/
theorem layerOut_at {N N' C C' C'' : ℕ} (A : Mat N C) (b : Mat 1 C) (W : Mat C C') (bl : Mat 1 C')
    (A' : Mat N' C) (b' : Mat 1 C) (W' : Mat C C'') (bl' : Mat 1 C'')
    (j : (⟨2, ![N', C'']⟩ : Shape).Idx) (i : (⟨2, ![N, C']⟩ : Shape).Idx)
    (hA : ∀ k : Fin C, A' (ix2 (c0 j) k) = A (ix2 (c0 i) k))
    (hb : ∀ k : Fin C, b' (ix2 (0 : Fin 1) k) = b (ix2 (0 : Fin 1) k))
    (hW : ∀ k : Fin C, W' (ix2 k (c1 j)) = W (ix2 k (c1 i)))
    (hbl : bl' (ix2 (0 : Fin 1) (c1 j)) = bl (ix2 (0 : Fin 1) (c1 i))) :
    layerOut A' b' W' bl' j = layerOut A b W bl i :=
  addRow_at _ _ _ _ j i (layerMid_at A b W A' b' W' j i hA hb hW) hbl

end Cert.Gcn3

end
-- ==== Proof.KValue.lean ====
/-
  The idealized kernel's result as the network over the host's aggregation.

  Through the whole program three buffers keep the graph side — the edges' sources, their targets, the column of
  edge weights — and the ten argument buffers keep the arguments: no stretch after the first three writes them and
  no region has them as an output.  Along that invariant the result is read back boundary by boundary: a region leaves
  its layer of the array it found (the four regions' values are hypotheses here), the stretch after it aggregates
  that array and lays the next bias out as a row.
-/
import proofs.«102307_j46583215292438_1_alg».proof.Proof.KHost
import proofs.«102307_j46583215292438_1_alg».proof.Proof.LibLeakyGcn

set_option maxRecDepth 16384

noncomputable section

namespace Cert.KernelIdeal.KValue

open Idealize.ShloMosaic Idealize.ShloMosaic.StableHlo Idealize.ShloMosaic.TcCoe Cert.KernelIdeal Cert.KernelIdeal.Facts₀ Cert.KernelIdeal.Facts
open Cert.KernelIdeal.KHost Cert.Dense Cert.Gcn3

variable (m : (ℓ : Loc nD τ sig) → Buf (Elt Ideal) ℓ) (ρ : Dev nD → PrngReg) (c : Dev nD)

/-- The buffers that hold the graph side and the arguments. -/
abbrev keepRefs : List (Ref sig .tc) := [main_v3, main_v6, main_v30, main_arg0, main_arg1, main_arg2, main_arg3, main_arg4, main_arg5, main_arg6, main_arg7, main_arg8, main_arg9]

/-- A valuation holds the graph side of the launch memory's edge list and the launch memory's arguments. -/
structure Good (W : Valuation τ sig (Elt Ideal)) : Prop where
  src : W (Proc.devRef .tc main_v3) = Agg.ends0 (m ((c : Thread nD τ).loc main_arg1))
  tgt : W (Proc.devRef .tc main_v6) = Agg.ends1 (m ((c : Thread nD τ).loc main_arg1))
  nrm : W (Proc.devRef .tc main_v30) = Agg.col (Agg.nrm (m ((c : Thread nD τ).loc main_arg1)))
  a0 : W (Proc.devRef .tc main_arg0) = m ((c : Thread nD τ).loc main_arg0)
  a1 : W (Proc.devRef .tc main_arg1) = m ((c : Thread nD τ).loc main_arg1)
  a2 : W (Proc.devRef .tc main_arg2) = m ((c : Thread nD τ).loc main_arg2)
  a3 : W (Proc.devRef .tc main_arg3) = m ((c : Thread nD τ).loc main_arg3)
  a4 : W (Proc.devRef .tc main_arg4) = m ((c : Thread nD τ).loc main_arg4)
  a5 : W (Proc.devRef .tc main_arg5) = m ((c : Thread nD τ).loc main_arg5)
  a6 : W (Proc.devRef .tc main_arg6) = m ((c : Thread nD τ).loc main_arg6)
  a7 : W (Proc.devRef .tc main_arg7) = m ((c : Thread nD τ).loc main_arg7)
  a8 : W (Proc.devRef .tc main_arg8) = m ((c : Thread nD τ).loc main_arg8)
  a9 : W (Proc.devRef .tc main_arg9) = m ((c : Thread nD τ).loc main_arg9)

variable {m c}

/-- The invariant passes to any valuation that agrees on those buffers. -/
theorem Good.of_keep {W W' : Valuation τ sig (Elt Ideal)} (g : Good m c W)
    (hk : ∀ r ∈ keepRefs, W' (Proc.devRef .tc r) = W (Proc.devRef .tc r)) : Good m c W' :=
  ⟨(hk main_v3 (by decide)).trans g.src,
   (hk main_v6 (by decide)).trans g.tgt,
   (hk main_v30 (by decide)).trans g.nrm,
   (hk main_arg0 (by decide)).trans g.a0,
   (hk main_arg1 (by decide)).trans g.a1,
   (hk main_arg2 (by decide)).trans g.a2,
   (hk main_arg3 (by decide)).trans g.a3,
   (hk main_arg4 (by decide)).trans g.a4,
   (hk main_arg5 (by decide)).trans g.a5,
   (hk main_arg6 (by decide)).trans g.a6,
   (hk main_arg7 (by decide)).trans g.a7,
   (hk main_arg8 (by decide)).trans g.a8,
   (hk main_arg9 (by decide)).trans g.a9⟩

variable (m c)

/-! ## The host stretches keep the invariant -/

theorem notin_hostOps1 : ∀ r ∈ keepRefs, r ∉ hostOps1_W := by decide
theorem notin_hostOps2 : ∀ r ∈ keepRefs, r ∉ hostOps2_W := by decide
theorem notin_hostOps3 : ∀ r ∈ keepRefs, r ∉ hostOps3_W := by decide
theorem notin_hostOps0 : ∀ r ∈ keepRefs, r ≠ main_v3 → r ≠ main_v6 → r ∉ hostOps0_W := by decide
theorem notin_hostOps0_2 : ∀ r ∈ keepRefs, r ≠ main_v30 → r ∉ hostOps0_2_W := by decide

/-! ## The first three stretches establish it -/

theorem dinv_eq : Gen.W2 m ρ c (Proc.devRef .tc main_v14) = Agg.dinv (m ((c : Thread nD τ).loc main_arg1)) := by
  show after Gen.hostOps0_1 (Gen.W1 m ρ c) (Proc.devRef .tc main_v14) = _
  rw [s01_v14]
  show select (after Gen.hostOps0 (Gen.W0 m ρ c) (Proc.devRef .tc main_v12)) (after Gen.hostOps0 (Gen.W0 m ρ c) (Proc.devRef .tc main_v13))
    (broadcastInDim S50000 ![] bcast_S_S50000 (after Gen.hostOps0 (Gen.W0 m ρ c) (Proc.devRef .tc main_cst_2))) = _
  rw [s0_v12, s0_v13, s0_cst2]
  rfl

theorem good3 : Good m c (Gen.W3 m ρ c) where
  src := (hostOps0_2_keep (Gen.W2 m ρ c) main_v3 (by decide)).trans
    ((hostOps0_1_keep (Gen.W1 m ρ c) main_v3 (by decide) (by decide) (by decide)).trans (s0_v3 (Gen.W0 m ρ c)))
  tgt := (hostOps0_2_keep (Gen.W2 m ρ c) main_v6 (by decide)).trans
    ((hostOps0_1_keep (Gen.W1 m ρ c) main_v6 (by decide) (by decide) (by decide)).trans (s0_v6 (Gen.W0 m ρ c)))
  nrm := by
    show after Gen.hostOps0_2 (Gen.W2 m ρ c) (Proc.devRef .tc main_v30) = _
    rw [s02_v30, dinv_eq m ρ c,
      show Gen.W2 m ρ c (Proc.devRef .tc main_v3) = Agg.ends0 (m ((c : Thread nD τ).loc main_arg1)) from
        (hostOps0_1_keep (Gen.W1 m ρ c) main_v3 (by decide) (by decide) (by decide)).trans (s0_v3 (Gen.W0 m ρ c)),
      show Gen.W2 m ρ c (Proc.devRef .tc main_v6) = Agg.ends1 (m ((c : Thread nD τ).loc main_arg1)) from
        (hostOps0_1_keep (Gen.W1 m ρ c) main_v6 (by decide) (by decide) (by decide)).trans (s0_v6 (Gen.W0 m ρ c)),
      ncolOf_eq]
  a0 := (hostOps0_2_keep (Gen.W2 m ρ c) main_arg0 (by decide)).trans
    ((hostOps0_1_keep (Gen.W1 m ρ c) main_arg0 (by decide) (by decide) (by decide)).trans (hostOps0_keep (Gen.W0 m ρ c) main_arg0 (by decide)))
  a1 := (hostOps0_2_keep (Gen.W2 m ρ c) main_arg1 (by decide)).trans
    ((hostOps0_1_keep (Gen.W1 m ρ c) main_arg1 (by decide) (by decide) (by decide)).trans (hostOps0_keep (Gen.W0 m ρ c) main_arg1 (by decide)))
  a2 := (hostOps0_2_keep (Gen.W2 m ρ c) main_arg2 (by decide)).trans
    ((hostOps0_1_keep (Gen.W1 m ρ c) main_arg2 (by decide) (by decide) (by decide)).trans (hostOps0_keep (Gen.W0 m ρ c) main_arg2 (by decide)))
  a3 := (hostOps0_2_keep (Gen.W2 m ρ c) main_arg3 (by decide)).trans
    ((hostOps0_1_keep (Gen.W1 m ρ c) main_arg3 (by decide) (by decide) (by decide)).trans (hostOps0_keep (Gen.W0 m ρ c) main_arg3 (by decide)))
  a4 := (hostOps0_2_keep (Gen.W2 m ρ c) main_arg4 (by decide)).trans
    ((hostOps0_1_keep (Gen.W1 m ρ c) main_arg4 (by decide) (by decide) (by decide)).trans (hostOps0_keep (Gen.W0 m ρ c) main_arg4 (by decide)))
  a5 := (hostOps0_2_keep (Gen.W2 m ρ c) main_arg5 (by decide)).trans
    ((hostOps0_1_keep (Gen.W1 m ρ c) main_arg5 (by decide) (by decide) (by decide)).trans (hostOps0_keep (Gen.W0 m ρ c) main_arg5 (by decide)))
  a6 := (hostOps0_2_keep (Gen.W2 m ρ c) main_arg6 (by decide)).trans
    ((hostOps0_1_keep (Gen.W1 m ρ c) main_arg6 (by decide) (by decide) (by decide)).trans (hostOps0_keep (Gen.W0 m ρ c) main_arg6 (by decide)))
  a7 := (hostOps0_2_keep (Gen.W2 m ρ c) main_arg7 (by decide)).trans
    ((hostOps0_1_keep (Gen.W1 m ρ c) main_arg7 (by decide) (by decide) (by decide)).trans (hostOps0_keep (Gen.W0 m ρ c) main_arg7 (by decide)))
  a8 := (hostOps0_2_keep (Gen.W2 m ρ c) main_arg8 (by decide)).trans
    ((hostOps0_1_keep (Gen.W1 m ρ c) main_arg8 (by decide) (by decide) (by decide)).trans (hostOps0_keep (Gen.W0 m ρ c) main_arg8 (by decide)))
  a9 := (hostOps0_2_keep (Gen.W2 m ρ c) main_arg9 (by decide)).trans
    ((hostOps0_1_keep (Gen.W1 m ρ c) main_arg9 (by decide) (by decide) (by decide)).trans (hostOps0_keep (Gen.W0 m ρ c) main_arg9 (by decide)))

/-! ## The regions keep the invariant: none has one of those buffers as an output -/

theorem keep_reg0 : ∀ r ∈ keepRefs, Gen.W4 m ρ c (Proc.devRef .tc r) = Gen.W3 m ρ c (Proc.devRef .tc r) := by
  intro r hr
  simp only [keepRefs, List.mem_cons, List.mem_nil_iff, or_false] at hr
  rcases hr with rfl | rfl | rfl | rfl | rfl | rfl | rfl | rfl | rfl | rfl | rfl | rfl | rfl
  all_goals first
    | exact Gen.W4_of_ne m ρ c _ (by decide)
    | exact (Gen.W4_arr m ρ c 0).trans (((Gen.dat0 (Gen.V3 m ρ) c).arrAt_in 0 rfl _).trans (Gen.A_eq0 (Gen.V3 m ρ) c 0))
    | exact (Gen.W4_arr m ρ c 2).trans (((Gen.dat0 (Gen.V3 m ρ) c).arrAt_in 2 rfl _).trans (Gen.A_eq0 (Gen.V3 m ρ) c 2))

theorem keep_reg1 : ∀ r ∈ keepRefs, Gen.W6 m ρ c (Proc.devRef .tc r) = Gen.W5 m ρ c (Proc.devRef .tc r) := by
  intro r hr
  simp only [keepRefs, List.mem_cons, List.mem_nil_iff, or_false] at hr
  rcases hr with rfl | rfl | rfl | rfl | rfl | rfl | rfl | rfl | rfl | rfl | rfl | rfl | rfl
  all_goals first
    | exact Gen.W6_of_ne m ρ c _ (by decide)
    | exact (Gen.W6_arr m ρ c 2).trans (((Gen.dat1 (Gen.V5 m ρ) c).arrAt_in 2 rfl _).trans (Gen.A_eq1 (Gen.V5 m ρ) c 2))

theorem keep_reg2 : ∀ r ∈ keepRefs, Gen.W8 m ρ c (Proc.devRef .tc r) = Gen.W7 m ρ c (Proc.devRef .tc r) := by
  intro r hr
  simp only [keepRefs, List.mem_cons, List.mem_nil_iff, or_false] at hr
  rcases hr with rfl | rfl | rfl | rfl | rfl | rfl | rfl | rfl | rfl | rfl | rfl | rfl | rfl
  all_goals first
    | exact Gen.W8_of_ne m ρ c _ (by decide)
    | exact (Gen.W8_arr m ρ c 2).trans (((Gen.dat2 (Gen.V7 m ρ) c).arrAt_in 2 rfl _).trans (Gen.A_eq2 (Gen.V7 m ρ) c 2))

theorem keep_reg3 : ∀ r ∈ keepRefs, Gen.W10 m ρ c (Proc.devRef .tc r) = Gen.W9 m ρ c (Proc.devRef .tc r) := by
  intro r hr
  simp only [keepRefs, List.mem_cons, List.mem_nil_iff, or_false] at hr
  rcases hr with rfl | rfl | rfl | rfl | rfl | rfl | rfl | rfl | rfl | rfl | rfl | rfl | rfl
  all_goals first
    | exact Gen.W10_of_ne m ρ c _ (by decide)
    | exact (Gen.W10_arr m ρ c 2).trans (((Gen.dat3 (Gen.V9 m ρ) c).arrAt_in 2 rfl _).trans (Gen.A_eq3 (Gen.V9 m ρ) c 2))

/-! ## The result -/

set_option maxHeartbeats 1000000 in
/-- The result array at the last boundary is the network of the launch memory's arguments, given what each region
    leaves in its output array as a function of the arrays it finds. -/
theorem value
    (hf0 : ∀ V : ((c : Dev nD) → (b : Ref sig .tc) → Buf (Elt Ideal) ((c : Thread nD τ).loc b)), (Gen.dat0 (F := Ideal) V c).arrAt 3 cfg0.N = mm (V c main_arg0 : S50000x128.Idx → EReal) (V c main_arg2 : S128x96.Idx → EReal))
    (hf1 : ∀ V : ((c : Dev nD) → (b : Ref sig .tc) → Buf (Elt Ideal) ((c : Thread nD τ).loc b)), (Gen.dat1 (F := Ideal) V c).arrAt 3 cfg1.N = layerMid (V c main_v45 : S50000x96.Idx → EReal) (V c main_v46 : S1x96.Idx → EReal) (V c main_arg4 : S96x96.Idx → EReal))
    (hf2 : ∀ V : ((c : Dev nD) → (b : Ref sig .tc) → Buf (Elt Ideal) ((c : Thread nD τ).loc b)), (Gen.dat2 (F := Ideal) V c).arrAt 3 cfg2.N = layerMid (V c main_v59 : S50000x96.Idx → EReal) (V c main_v60 : S1x96.Idx → EReal) (V c main_arg6 : S96x96.Idx → EReal))
    (hf3 : ∀ V : ((c : Dev nD) → (b : Ref sig .tc) → Buf (Elt Ideal) ((c : Thread nD τ).loc b)), (Gen.dat3 (F := Ideal) V c).arrAt 4 cfg3.N = layerOut (V c main_v73 : S50000x96.Idx → EReal) (V c main_v74 : S1x96.Idx → EReal) (V c main_arg8 : S96x21.Idx → EReal) (V c main_v75 : S1x21.Idx → EReal)) :
    Gen.W10 m ρ c (Proc.devRef .tc main_v76) = net (Agg.agg (m ((c : Thread nD τ).loc main_arg1))) (m ((c : Thread nD τ).loc main_arg0) : S50000x128.Idx → EReal) (m ((c : Thread nD τ).loc main_arg2) : S128x96.Idx → EReal) (row (m ((c : Thread nD τ).loc main_arg3) : S96.Idx → EReal)) (m ((c : Thread nD τ).loc main_arg4) : S96x96.Idx → EReal) (row (m ((c : Thread nD τ).loc main_arg5) : S96.Idx → EReal)) (m ((c : Thread nD τ).loc main_arg6) : S96x96.Idx → EReal) (row (m ((c : Thread nD τ).loc main_arg7) : S96.Idx → EReal)) (m ((c : Thread nD τ).loc main_arg8) : S96x21.Idx → EReal) (row (m ((c : Thread nD τ).loc main_arg9) : S21.Idx → EReal)) := by
  have g3 := good3 m ρ c
  have e33 : Gen.W4 m ρ c (Proc.devRef .tc main_v33) = (mm (m ((c : Thread nD τ).loc main_arg0) : S50000x128.Idx → EReal) (m ((c : Thread nD τ).loc main_arg2) : S128x96.Idx → EReal)) := by
    refine (Gen.W4_arr m ρ c 3).trans ((hf0 (Gen.V3 m ρ)).trans ?_)
    show mm (Gen.W3 m ρ c (Proc.devRef .tc main_arg0)) (Gen.W3 m ρ c (Proc.devRef .tc main_arg2)) = _
    rw [g3.a0, g3.a2]
  have g4 : Good m c (Gen.W4 m ρ c) := g3.of_keep (keep_reg0 m ρ c)
  have g5 : Good m c (Gen.W5 m ρ c) := g4.of_keep fun r hr => hostOps1_keep _ r (notin_hostOps1 r hr)
  have e45 : Gen.W5 m ρ c (Proc.devRef .tc main_v45) = Agg.agg (m ((c : Thread nD τ).loc main_arg1)) (mm (m ((c : Thread nD τ).loc main_arg0) : S50000x128.Idx → EReal) (m ((c : Thread nD τ).loc main_arg2) : S128x96.Idx → EReal)) := by
    show after Gen.hostOps1 (Gen.W4 m ρ c) (Proc.devRef .tc main_v45) = _
    rw [s1_v45, g4.src, g4.tgt, g4.nrm, e33, aggOf_eq]
  have e46 : Gen.W5 m ρ c (Proc.devRef .tc main_v46) = (row (m ((c : Thread nD τ).loc main_arg3) : S96.Idx → EReal)) := by
    show after Gen.hostOps1 (Gen.W4 m ρ c) (Proc.devRef .tc main_v46) = _
    rw [s1_v46, g4.a3]
    exact shapeCast_row _ _
  have e47 : Gen.W6 m ρ c (Proc.devRef .tc main_v47) = (layerMid (Agg.agg (m ((c : Thread nD τ).loc main_arg1)) (mm (m ((c : Thread nD τ).loc main_arg0) : S50000x128.Idx → EReal) (m ((c : Thread nD τ).loc main_arg2) : S128x96.Idx → EReal))) (row (m ((c : Thread nD τ).loc main_arg3) : S96.Idx → EReal)) (m ((c : Thread nD τ).loc main_arg4) : S96x96.Idx → EReal)) := by
    refine (Gen.W6_arr m ρ c 3).trans ((hf1 (Gen.V5 m ρ)).trans ?_)
    show layerMid (Gen.W5 m ρ c (Proc.devRef .tc main_v45)) (Gen.W5 m ρ c (Proc.devRef .tc main_v46)) (Gen.W5 m ρ c (Proc.devRef .tc main_arg4)) = _
    rw [e45, e46, g5.a4]
  have g6 : Good m c (Gen.W6 m ρ c) := g5.of_keep (keep_reg1 m ρ c)
  have g7 : Good m c (Gen.W7 m ρ c) := g6.of_keep fun r hr => hostOps2_keep _ r (notin_hostOps2 r hr)
  have e59 : Gen.W7 m ρ c (Proc.devRef .tc main_v59) = Agg.agg (m ((c : Thread nD τ).loc main_arg1)) (layerMid (Agg.agg (m ((c : Thread nD τ).loc main_arg1)) (mm (m ((c : Thread nD τ).loc main_arg0) : S50000x128.Idx → EReal) (m ((c : Thread nD τ).loc main_arg2) : S128x96.Idx → EReal))) (row (m ((c : Thread nD τ).loc main_arg3) : S96.Idx → EReal)) (m ((c : Thread nD τ).loc main_arg4) : S96x96.Idx → EReal)) := by
    show after Gen.hostOps2 (Gen.W6 m ρ c) (Proc.devRef .tc main_v59) = _
    rw [s2_v59, g6.src, g6.tgt, g6.nrm, e47, aggOf_eq]
  have e60 : Gen.W7 m ρ c (Proc.devRef .tc main_v60) = (row (m ((c : Thread nD τ).loc main_arg5) : S96.Idx → EReal)) := by
    show after Gen.hostOps2 (Gen.W6 m ρ c) (Proc.devRef .tc main_v60) = _
    rw [s2_v60, g6.a5]
    exact shapeCast_row _ _
  have e61 : Gen.W8 m ρ c (Proc.devRef .tc main_v61) = (layerMid (Agg.agg (m ((c : Thread nD τ).loc main_arg1)) (layerMid (Agg.agg (m ((c : Thread nD τ).loc main_arg1)) (mm (m ((c : Thread nD τ).loc main_arg0) : S50000x128.Idx → EReal) (m ((c : Thread nD τ).loc main_arg2) : S128x96.Idx → EReal))) (row (m ((c : Thread nD τ).loc main_arg3) : S96.Idx → EReal)) (m ((c : Thread nD τ).loc main_arg4) : S96x96.Idx → EReal))) (row (m ((c : Thread nD τ).loc main_arg5) : S96.Idx → EReal)) (m ((c : Thread nD τ).loc main_arg6) : S96x96.Idx → EReal)) := by
    refine (Gen.W8_arr m ρ c 3).trans ((hf2 (Gen.V7 m ρ)).trans ?_)
    show layerMid (Gen.W7 m ρ c (Proc.devRef .tc main_v59)) (Gen.W7 m ρ c (Proc.devRef .tc main_v60)) (Gen.W7 m ρ c (Proc.devRef .tc main_arg6)) = _
    rw [e59, e60, g7.a6]
  have g8 : Good m c (Gen.W8 m ρ c) := g7.of_keep (keep_reg2 m ρ c)
  have g9 : Good m c (Gen.W9 m ρ c) := g8.of_keep fun r hr => hostOps3_keep _ r (notin_hostOps3 r hr)
  have e73 : Gen.W9 m ρ c (Proc.devRef .tc main_v73) = Agg.agg (m ((c : Thread nD τ).loc main_arg1)) (layerMid (Agg.agg (m ((c : Thread nD τ).loc main_arg1)) (layerMid (Agg.agg (m ((c : Thread nD τ).loc main_arg1)) (mm (m ((c : Thread nD τ).loc main_arg0) : S50000x128.Idx → EReal) (m ((c : Thread nD τ).loc main_arg2) : S128x96.Idx → EReal))) (row (m ((c : Thread nD τ).loc main_arg3) : S96.Idx → EReal)) (m ((c : Thread nD τ).loc main_arg4) : S96x96.Idx → EReal))) (row (m ((c : Thread nD τ).loc main_arg5) : S96.Idx → EReal)) (m ((c : Thread nD τ).loc main_arg6) : S96x96.Idx → EReal)) := by
    show after Gen.hostOps3 (Gen.W8 m ρ c) (Proc.devRef .tc main_v73) = _
    rw [s3_v73, g8.src, g8.tgt, g8.nrm, e61, aggOf_eq]
  have e74 : Gen.W9 m ρ c (Proc.devRef .tc main_v74) = (row (m ((c : Thread nD τ).loc main_arg7) : S96.Idx → EReal)) := by
    show after Gen.hostOps3 (Gen.W8 m ρ c) (Proc.devRef .tc main_v74) = _
    rw [s3_v74, g8.a7]
    exact shapeCast_row _ _
  have e75 : Gen.W9 m ρ c (Proc.devRef .tc main_v75) = (row (m ((c : Thread nD τ).loc main_arg9) : S21.Idx → EReal)) := by
    show after Gen.hostOps3 (Gen.W8 m ρ c) (Proc.devRef .tc main_v75) = _
    rw [s3_v75, g8.a9]
    exact shapeCast_row _ _
  have e76a : Gen.W10 m ρ c (Proc.devRef .tc main_v76) = (Gen.dat3 (F := Ideal) (Gen.V9 m ρ) c).arrAt 4 cfg3.N := Gen.W10_arr m ρ c 4
  refine e76a.trans ((hf3 (Gen.V9 m ρ)).trans ?_)
  show layerOut (Gen.W9 m ρ c (Proc.devRef .tc main_v73)) (Gen.W9 m ρ c (Proc.devRef .tc main_v74)) (Gen.W9 m ρ c (Proc.devRef .tc main_arg8)) (Gen.W9 m ρ c (Proc.devRef .tc main_v75)) = _
  rw [e73, e74, g9.a8, e75]
  rfl

end Cert.KernelIdeal.KValue

end
-- ==== Proof.Region0.lean ====
/-
  What the first row-tiled product leaves in its output array, as one function of the two arrays its body reads.

  The region cuts its left operand (50000 rows of 128 features) into ten blocks of 5000 rows and multiplies every block by
  the whole 128 x 96 weight array, writing the block of the result (a third window, one row of 128, is staged but never
  read).  On the extended reals the roundings to the short format are the identity, so a block of the result is the
  matrix product `Cert.Dense.mm` of the block; an entry of a product depends on one row of the left operand only, so
  block `t` of the result is block `t` of the product of the WHOLE left operand; the ten blocks tile the array, hence
  the array ends holding the product of the whole arrays.
-/
import proofs.«102307_j46583215292438_1_alg».proof.Proof.Gen.KernelIdeal.Frame
import proofs.«102307_j46583215292438_1_alg».proof.Proof.LibLeakyGcn
import Idealize.ShloMosaic.Lib.Pipeline.Value
import Idealize.ShloMosaic.Lib.ValueIdx

noncomputable section

namespace Cert.KernelIdeal.RegionVal

open Cert.KernelIdeal Cert.KernelIdeal.Facts₀ Cert.KernelIdeal.Facts Idealize.ShloMosaic Idealize.ShloMosaic.TcCoe Idealize.SL.Sem
open Idealize.ShloMosaic.Pipeline (Dat)
open Idealize.ShloMosaic.ValueIdx Cert.Dense Cert.BiasRow Cert.Gcn3

theorem hz0 : (![0, 0] : Fin 2 → Nat) = fun _ => 0 := funext fun a => by fin_cases a <;> rfl

/-- The block's payload is the matrix product of its loaded blocks: the two roundings are the identity on the
    extended reals, and the product into a zero accumulator is `mm`. -/
theorem pay0_eq (x0 : Vec Ideal S5000x128 .f32) (x2 : Vec Ideal S128x96 .f32) :
    Gen.k0_pay1 x0 x2 = mm x0 x2 := by
  unfold Gen.k0_pay1
  dsimp only
  refine (matmul_zero_eq_mm _ rfl rfl rfl rfl rfl rfl none _ _).trans ?_
  rfl

variable (V : (c : Dev nD) → (b : Ref sig .tc) → Buf (Elt Ideal) ((c : Thread nD τ).loc b))

/-- The printed index maps, decided over the grid: the row-block windows move together along the rows, every
    other block index is zero, and the row-block index stays in its range. -/
theorem idx_facts0 : ∀ t : Fin cfg0.N, win0_0.index t (0 : Fin 2) = win0_3.index t (0 : Fin 2)
    ∧ win0_0.index t (1 : Fin 2) = 0
    ∧ win0_2.index t (0 : Fin 2) = 0 ∧ win0_2.index t (1 : Fin 2) = 0
    ∧ win0_3.index t (1 : Fin 2) = 0 ∧ win0_3.index t (0 : Fin 2) ≤ 9 :=
  (by decide +kernel : ∀ t : Fin grid0.N, _)

/-- What point `t` writes back is block `t` of the product of the region's two input arrays: an entry of a block's
    product depends on one row of the block, which is a row of the array. -/
theorem flushed0_eq (c : Dev nD) (t : Fin cfg0.N) :
    (Gen.dat0 V c).flushed 3 t = ((cfg0.win 3).blk t).view.read (Elt Ideal)
      (mm (V c main_arg0 : S50000x128.Idx → EReal) (V c main_arg2 : S128x96.Idx → EReal)) := by
  show (cfg0.win 3).cut (grid0.coords t) ((Gen.dat0 V c).after 3 t) = _
  rw [Gen.after0_3]
  unfold Gen.out0_3
  rw [View.canon_unit_zero hz0]
  simp only [View.ld_unit_zero (S := S5000x128) hz0, View.ld_unit_zero (S := S128x96) hz0]
  rw [pay0_eq]
  obtain ⟨e0, e1, e2, e3, e4, e5⟩ := idx_facts0 t
  refine funext fun (j : S5000x96.Idx) => ?_
  show mm (Gen.iblk0 V c 0 t) (Gen.iblk0 V c 2 t) j
    = mm (V c main_arg0 : S50000x128.Idx → EReal) (V c main_arg2 : S128x96.Idx → EReal) (((cfg0.win 3).blk t).view.emb j)
  refine mm_at _ _ _ _ j _ (fun k => ?_) (fun k => ?_)
  · show (V c main_arg0 : S50000x128.Idx → EReal) (((cfg0.win 0).blk t).view.emb (ix2 (c0 j) k)) = _
    refine congrArg _ (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * k.val = k.val; omega
  · show (V c main_arg2 : S128x96.Idx → EReal) (((cfg0.win 2).blk t).view.emb (ix2 k (c1 j))) = _
    refine congrArg _ (funext fun a => Fin.ext ?_)
    match a with
    | ⟨0, _⟩ => show win0_2.index t (0 : Fin 2) * 128 + 1 * k.val = k.val; omega
    | ⟨1, _⟩ => show win0_2.index t (1 : Fin 2) * 96 + 1 * (j 1).val = win0_3.index t (1 : Fin 2) * 96 + 1 * (j 1).val; omega

/-- Every row block is some point's. -/
theorem idx_onto0 : ∀ q0 : Fin 10, ∃ t : Fin cfg0.N, win0_3.index t = ![q0.val, 0] :=
  (by decide +kernel : ∀ q0 : Fin 10, ∃ t : Fin grid0.N, win0_3.index t = ![q0.val, 0])

/-- An index of the array is in point `t`'s block iff each coordinate is in the block's range on its axis. -/
theorem mem_blk0 (t : Fin cfg0.N) (i : S50000x96.Idx) :
    i ∈ ((cfg0.win 3).blk t).view.set ↔ ∀ a : Fin 2, win0_3.index t a * S5000x96.size a ≤ (i a).val ∧ (i a).val < win0_3.index t a * S5000x96.size a + S5000x96.size a := by
  show i ∈ ((View.whole main_v33).slice (win0_3.rect t)).set ↔ _
  rw [View.set_slice_whole, Rect.mem_set_unit]
  exact Iff.rfl

/-- The blocks tile the array: row `r` is in the block of the point whose row-block index is `r / 5000`. -/
theorem cover0 (i : S50000x96.Idx) : ∃ t : Fin cfg0.N, (cfg0.win 3).flush t = true ∧ i ∈ ((cfg0.win 3).blk t).view.set := by
  have hi0 : (i 0).val < 50000 := (i 0).isLt
  have hi1 : (i 1).val < 96 := (i 1).isLt
  obtain ⟨t, ht⟩ := idx_onto0 ⟨(i 0).val / 5000, by omega⟩
  have q0 : win0_3.index t (0 : Fin 2) = (i 0).val / 5000 := congrFun ht 0
  have q1 : win0_3.index t (1 : Fin 2) = 0 := congrFun ht 1
  refine ⟨t, Gen.flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 96 ≤ (i 1).val ∧ (i 1).val < win0_3.index t (1 : Fin 2) * 96 + 96; omega

/-- The region's output array after the run is the product of its two input arrays as the region finds them. -/
theorem final0 (c : Dev nD) : (Gen.dat0 (F := Ideal) V c).arrAt 3 cfg0.N
    = mm (V c main_arg0 : S50000x128.Idx → EReal) (V c main_arg2 : S128x96.Idx → EReal) :=
  (Gen.dat0 V c).arrAt_eq_of_cover 3 _ (fun t _ => flushed0_eq V c t) (cover0)

end Cert.KernelIdeal.RegionVal

end
-- ==== Proof.Region1.lean ====
/-
  What the second row-tiled product leaves in its output array, as one function of the three arrays it reads.

  The region cuts its left operand (50000 rows of 96 features) into ten blocks of 5000 rows; at every block it adds the
  one-row bias to every row, applies the leaky rectifier, and multiplies by the whole 96 x 96 weight array, writing
  the block of the result.  On the extended reals the roundings to the short format are the identity, so a block of
  the result is the middle layer `Cert.Gcn3.layerMid` of the block; an entry of that layer depends on one row of
  the left operand only, so block `t` of the result is block `t` of the layer of the WHOLE left operand; the ten
  blocks tile the array, hence the array ends holding the layer of the whole arrays.
-/
import proofs.«102307_j46583215292438_1_alg».proof.Proof.Gen.KernelIdeal.Frame
import proofs.«102307_j46583215292438_1_alg».proof.Proof.LibLeakyGcn
import Idealize.ShloMosaic.Lib.Pipeline.Value
import Idealize.ShloMosaic.Lib.ValueIdx

noncomputable section

namespace Cert.KernelIdeal.RegionVal

open Cert.KernelIdeal Cert.KernelIdeal.Facts₀ Cert.KernelIdeal.Facts Idealize.ShloMosaic Idealize.ShloMosaic.TcCoe Idealize.SL.Sem
open Idealize.ShloMosaic.Pipeline (Dat)
open Idealize.ShloMosaic.ValueIdx Cert.Dense Cert.BiasRow Cert.Gcn3

theorem hz1 : (![0, 0] : Fin 2 → Nat) = fun _ => 0 := funext fun a => by fin_cases a <;> rfl

/-- The block's payload is a middle layer of its loaded blocks: the casts and the two roundings are the identity on
    the extended reals, the broadcast row added is `addRow`, the comparison, product and selection are `lrelu`, and
    the product into a zero accumulator is `mm`. -/
theorem pay1_eq (x0 : Vec Ideal S5000x96 .f32) (x1 : Vec Ideal S1x96 .f32) (x2 : Vec Ideal S96x96 .f32) :
    Gen.k1_pay1 x0 x1 x2 = layerMid x0 x1 x2 := by
  unfold Gen.k1_pay1
  dsimp only
  refine (matmul_zero_eq_mm _ rfl rfl rfl rfl rfl rfl none _ _).trans ?_
  rw [shapeCast_self, shapeCast_self]
  unfold layerMid
  rw [← vecAddRow x0 x1 broadcasts_S1x96_S5000x96]
  rfl

variable (V : (c : Dev nD) → (b : Ref sig .tc) → Buf (Elt Ideal) ((c : Thread nD τ).loc b))

/-- The printed index maps, decided over the grid: the row-block windows move together along the rows, every
    other block index is zero, and the row-block index stays in its range. -/
theorem idx_facts1 : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 9 :=
  (by decide +kernel : ∀ t : Fin grid1.N, _)

/-- What point `t` writes back is block `t` of the middle layer of the region's three input arrays: an entry of a
    block's layer depends on one row of the block, which is a row of the array. -/
theorem flushed1_eq (c : Dev nD) (t : Fin cfg1.N) :
    (Gen.dat1 V c).flushed 3 t = ((cfg1.win 3).blk t).view.read (Elt Ideal)
      (layerMid (V c main_v45 : S50000x96.Idx → EReal) (V c main_v46 : S1x96.Idx → EReal) (V c main_arg4 : S96x96.Idx → EReal)) := by
  show (cfg1.win 3).cut (grid1.coords t) ((Gen.dat1 V c).after 3 t) = _
  rw [Gen.after1_3]
  unfold Gen.out1_3
  rw [View.canon_unit_zero hz1]
  simp only [View.ld_unit_zero (S := S5000x96) hz1, View.ld_unit_zero (S := S1x96) hz1, View.ld_unit_zero (S := S96x96) hz1]
  rw [pay1_eq]
  obtain ⟨e0, e1, e2, e3, e4, e5, e6, e7⟩ := idx_facts1 t
  refine funext fun (j : S5000x96.Idx) => ?_
  show layerMid (Gen.iblk1 V c 0 t) (Gen.iblk1 V c 1 t) (Gen.iblk1 V c 2 t) j
    = layerMid (V c main_v45 : S50000x96.Idx → EReal) (V c main_v46 : S1x96.Idx → EReal) (V c main_arg4 : S96x96.Idx → EReal) (((cfg1.win 3).blk t).view.emb j)
  refine layerMid_at _ _ _ _ _ _ j _ (fun k => ?_) (fun k => ?_) (fun k => ?_)
  · show (V c main_v45 : S50000x96.Idx → EReal) (((cfg1.win 0).blk t).view.emb (ix2 (c0 j) k)) = _
    refine congrArg _ (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 96 + 1 * k.val = k.val; omega
  · show (V c main_v46 : S1x96.Idx → EReal) (((cfg1.win 1).blk t).view.emb (ix2 (0 : Fin 1) k)) = _
    refine congrArg _ (funext fun a => Fin.ext ?_)
    match a with
    | ⟨0, _⟩ => show win1_1.index t (0 : Fin 2) * 1 + 1 * 0 = 0; omega
    | ⟨1, _⟩ => show win1_1.index t (1 : Fin 2) * 96 + 1 * k.val = k.val; omega
  · show (V c main_arg4 : S96x96.Idx → EReal) (((cfg1.win 2).blk t).view.emb (ix2 k (c1 j))) = _
    refine congrArg _ (funext fun a => Fin.ext ?_)
    match a with
    | ⟨0, _⟩ => show win1_2.index t (0 : Fin 2) * 96 + 1 * k.val = k.val; omega
    | ⟨1, _⟩ => show win1_2.index t (1 : Fin 2) * 96 + 1 * (j 1).val = win1_3.index t (1 : Fin 2) * 96 + 1 * (j 1).val; omega

/-- Every row block is some point's. -/
theorem idx_onto1 : ∀ q0 : Fin 10, ∃ t : Fin cfg1.N, win1_3.index t = ![q0.val, 0] :=
  (by decide +kernel : ∀ q0 : Fin 10, ∃ t : Fin grid1.N, win1_3.index t = ![q0.val, 0])

/-- An index of the array is in point `t`'s block iff each coordinate is in the block's range on its axis. -/
theorem mem_blk1 (t : Fin cfg1.N) (i : S50000x96.Idx) :
    i ∈ ((cfg1.win 3).blk t).view.set ↔ ∀ a : Fin 2, win1_3.index t a * S5000x96.size a ≤ (i a).val ∧ (i a).val < win1_3.index t a * S5000x96.size a + S5000x96.size a := by
  show i ∈ ((View.whole main_v47).slice (win1_3.rect t)).set ↔ _
  rw [View.set_slice_whole, Rect.mem_set_unit]
  exact Iff.rfl

/-- The blocks tile the array: row `r` is in the block of the point whose row-block index is `r / 5000`. -/
theorem cover1 (i : S50000x96.Idx) : ∃ t : Fin cfg1.N, (cfg1.win 3).flush t = true ∧ i ∈ ((cfg1.win 3).blk t).view.set := by
  have hi0 : (i 0).val < 50000 := (i 0).isLt
  have hi1 : (i 1).val < 96 := (i 1).isLt
  obtain ⟨t, ht⟩ := idx_onto1 ⟨(i 0).val / 5000, by omega⟩
  have q0 : win1_3.index t (0 : Fin 2) = (i 0).val / 5000 := congrFun ht 0
  have q1 : win1_3.index t (1 : Fin 2) = 0 := congrFun ht 1
  refine ⟨t, Gen.flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 96 ≤ (i 1).val ∧ (i 1).val < win1_3.index t (1 : Fin 2) * 96 + 96; omega

/-- The region's output array after the run is the middle layer of its three input arrays as the region finds them. -/
theorem final1 (c : Dev nD) : (Gen.dat1 (F := Ideal) V c).arrAt 3 cfg1.N
    = layerMid (V c main_v45 : S50000x96.Idx → EReal) (V c main_v46 : S1x96.Idx → EReal) (V c main_arg4 : S96x96.Idx → EReal) :=
  (Gen.dat1 V c).arrAt_eq_of_cover 3 _ (fun t _ => flushed1_eq V c t) (cover1)

end Cert.KernelIdeal.RegionVal

end
-- ==== Proof.Region2.lean ====
/-
  What the third row-tiled product leaves in its output array, as one function of the three arrays it reads.

  The region cuts its left operand (50000 rows of 96 features) into ten blocks of 5000 rows; at every block it adds the
  one-row bias to every row, applies the leaky rectifier, and multiplies by the whole 96 x 96 weight array, writing
  the block of the result.  On the extended reals the roundings to the short format are the identity, so a block of
  the result is the middle layer `Cert.Gcn3.layerMid` of the block; an entry of that layer depends on one row of
  the left operand only, so block `t` of the result is block `t` of the layer of the WHOLE left operand; the ten
  blocks tile the array, hence the array ends holding the layer of the whole arrays.
-/
import proofs.«102307_j46583215292438_1_alg».proof.Proof.Gen.KernelIdeal.Frame
import proofs.«102307_j46583215292438_1_alg».proof.Proof.LibLeakyGcn
import Idealize.ShloMosaic.Lib.Pipeline.Value
import Idealize.ShloMosaic.Lib.ValueIdx

noncomputable section

namespace Cert.KernelIdeal.RegionVal

open Cert.KernelIdeal Cert.KernelIdeal.Facts₀ Cert.KernelIdeal.Facts Idealize.ShloMosaic Idealize.ShloMosaic.TcCoe Idealize.SL.Sem
open Idealize.ShloMosaic.Pipeline (Dat)
open Idealize.ShloMosaic.ValueIdx Cert.Dense Cert.BiasRow Cert.Gcn3

theorem hz2 : (![0, 0] : Fin 2 → Nat) = fun _ => 0 := funext fun a => by fin_cases a <;> rfl

/-- The block's payload is a middle layer of its loaded blocks: the casts and the two roundings are the identity on
    the extended reals, the broadcast row added is `addRow`, the comparison, product and selection are `lrelu`, and
    the product into a zero accumulator is `mm`. -/
theorem pay2_eq (x0 : Vec Ideal S5000x96 .f32) (x1 : Vec Ideal S1x96 .f32) (x2 : Vec Ideal S96x96 .f32) :
    Gen.k2_pay1 x0 x1 x2 = layerMid x0 x1 x2 := by
  unfold Gen.k2_pay1
  dsimp only
  refine (matmul_zero_eq_mm _ rfl rfl rfl rfl rfl rfl none _ _).trans ?_
  rw [shapeCast_self, shapeCast_self]
  unfold layerMid
  rw [← vecAddRow x0 x1 broadcasts_S1x96_S5000x96]
  rfl

variable (V : (c : Dev nD) → (b : Ref sig .tc) → Buf (Elt Ideal) ((c : Thread nD τ).loc b))

/-- The printed index maps, decided over the grid: the row-block windows move together along the rows, every
    other block index is zero, and the row-block index stays in its range. -/
theorem idx_facts2 : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 9 :=
  (by decide +kernel : ∀ t : Fin grid2.N, _)

/-- What point `t` writes back is block `t` of the middle layer of the region's three input arrays: an entry of a
    block's layer depends on one row of the block, which is a row of the array. -/
theorem flushed2_eq (c : Dev nD) (t : Fin cfg2.N) :
    (Gen.dat2 V c).flushed 3 t = ((cfg2.win 3).blk t).view.read (Elt Ideal)
      (layerMid (V c main_v59 : S50000x96.Idx → EReal) (V c main_v60 : S1x96.Idx → EReal) (V c main_arg6 : S96x96.Idx → EReal)) := by
  show (cfg2.win 3).cut (grid2.coords t) ((Gen.dat2 V c).after 3 t) = _
  rw [Gen.after2_3]
  unfold Gen.out2_3
  rw [View.canon_unit_zero hz2]
  simp only [View.ld_unit_zero (S := S5000x96) hz2, View.ld_unit_zero (S := S1x96) hz2, View.ld_unit_zero (S := S96x96) hz2]
  rw [pay2_eq]
  obtain ⟨e0, e1, e2, e3, e4, e5, e6, e7⟩ := idx_facts2 t
  refine funext fun (j : S5000x96.Idx) => ?_
  show layerMid (Gen.iblk2 V c 0 t) (Gen.iblk2 V c 1 t) (Gen.iblk2 V c 2 t) j
    = layerMid (V c main_v59 : S50000x96.Idx → EReal) (V c main_v60 : S1x96.Idx → EReal) (V c main_arg6 : S96x96.Idx → EReal) (((cfg2.win 3).blk t).view.emb j)
  refine layerMid_at _ _ _ _ _ _ j _ (fun k => ?_) (fun k => ?_) (fun k => ?_)
  · show (V c main_v59 : S50000x96.Idx → EReal) (((cfg2.win 0).blk t).view.emb (ix2 (c0 j) k)) = _
    refine congrArg _ (funext fun a => Fin.ext ?_)
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 96 + 1 * k.val = k.val; omega
  · show (V c main_v60 : S1x96.Idx → EReal) (((cfg2.win 1).blk t).view.emb (ix2 (0 : Fin 1) k)) = _
    refine congrArg _ (funext fun a => Fin.ext ?_)
    match a with
    | ⟨0, _⟩ => show win2_1.index t (0 : Fin 2) * 1 + 1 * 0 = 0; omega
    | ⟨1, _⟩ => show win2_1.index t (1 : Fin 2) * 96 + 1 * k.val = k.val; omega
  · show (V c main_arg6 : S96x96.Idx → EReal) (((cfg2.win 2).blk t).view.emb (ix2 k (c1 j))) = _
    refine congrArg _ (funext fun a => Fin.ext ?_)
    match a with
    | ⟨0, _⟩ => show win2_2.index t (0 : Fin 2) * 96 + 1 * k.val = k.val; omega
    | ⟨1, _⟩ => show win2_2.index t (1 : Fin 2) * 96 + 1 * (j 1).val = win2_3.index t (1 : Fin 2) * 96 + 1 * (j 1).val; omega

/-- Every row block is some point's. -/
theorem idx_onto2 : ∀ q0 : Fin 10, ∃ t : Fin cfg2.N, win2_3.index t = ![q0.val, 0] :=
  (by decide +kernel : ∀ q0 : Fin 10, ∃ t : Fin grid2.N, win2_3.index t = ![q0.val, 0])

/-- An index of the array is in point `t`'s block iff each coordinate is in the block's range on its axis. -/
theorem mem_blk2 (t : Fin cfg2.N) (i : S50000x96.Idx) :
    i ∈ ((cfg2.win 3).blk t).view.set ↔ ∀ a : Fin 2, win2_3.index t a * S5000x96.size a ≤ (i a).val ∧ (i a).val < win2_3.index t a * S5000x96.size a + S5000x96.size a := by
  show i ∈ ((View.whole main_v61).slice (win2_3.rect t)).set ↔ _
  rw [View.set_slice_whole, Rect.mem_set_unit]
  exact Iff.rfl

/-- The blocks tile the array: row `r` is in the block of the point whose row-block index is `r / 5000`. -/
theorem cover2 (i : S50000x96.Idx) : ∃ t : Fin cfg2.N, (cfg2.win 3).flush t = true ∧ i ∈ ((cfg2.win 3).blk t).view.set := by
  have hi0 : (i 0).val < 50000 := (i 0).isLt
  have hi1 : (i 1).val < 96 := (i 1).isLt
  obtain ⟨t, ht⟩ := idx_onto2 ⟨(i 0).val / 5000, by omega⟩
  have q0 : win2_3.index t (0 : Fin 2) = (i 0).val / 5000 := congrFun ht 0
  have q1 : win2_3.index t (1 : Fin 2) = 0 := congrFun ht 1
  refine ⟨t, Gen.flush2_3 t, ?_⟩
  rw [mem_blk2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 96 ≤ (i 1).val ∧ (i 1).val < win2_3.index t (1 : Fin 2) * 96 + 96; omega

/-- The region's output array after the run is the middle layer of its three input arrays as the region finds them. -/
theorem final2 (c : Dev nD) : (Gen.dat2 (F := Ideal) V c).arrAt 3 cfg2.N
    = layerMid (V c main_v59 : S50000x96.Idx → EReal) (V c main_v60 : S1x96.Idx → EReal) (V c main_arg6 : S96x96.Idx → EReal) :=
  (Gen.dat2 V c).arrAt_eq_of_cover 3 _ (fun t _ => flushed2_eq V c t) (cover2)

end Cert.KernelIdeal.RegionVal

end
-- ==== Proof.Region3.lean ====
/-
  What the last row-tiled product leaves in its output array, as one function of the four arrays it reads.

  The region cuts its left operand (50000 rows of 96 features) into ten blocks of 5000 rows; at every block it adds the
  one-row bias to every row, applies the leaky rectifier, multiplies by the whole 96 x 21 weight array and adds the
  one-row output bias, writing the block of the result.  On the extended reals the roundings to the short format are
  the identity, so a block of the result is the head `Cert.Gcn3.layerOut` of the block; an entry of the head
  depends on one row of the left operand only, so block `t` of the result is block `t` of the head of the WHOLE
  left operand; the ten blocks tile the array, hence the array ends holding the head of the whole arrays.
-/
import proofs.«102307_j46583215292438_1_alg».proof.Proof.Gen.KernelIdeal.Frame
import proofs.«102307_j46583215292438_1_alg».proof.Proof.LibLeakyGcn
import Idealize.ShloMosaic.Lib.Pipeline.Value
import Idealize.ShloMosaic.Lib.ValueIdx

noncomputable section

namespace Cert.KernelIdeal.RegionVal

open Cert.KernelIdeal Cert.KernelIdeal.Facts₀ Cert.KernelIdeal.Facts Idealize.ShloMosaic Idealize.ShloMosaic.TcCoe Idealize.SL.Sem
open Idealize.ShloMosaic.Pipeline (Dat)
open Idealize.ShloMosaic.ValueIdx Cert.Dense Cert.BiasRow Cert.Gcn3

theorem hz3 : (![0, 0] : Fin 2 → Nat) = fun _ => 0 := funext fun a => by fin_cases a <;> rfl

/-- The block's payload is the head of its loaded blocks: the casts and the two roundings are the identity on the
    extended reals, a broadcast row added is `addRow`, the comparison, product and selection are `lrelu`, and the
    product into a zero accumulator is `mm`. -/
theorem pay3_eq (x0 : Vec Ideal S5000x96 .f32) (x1 : Vec Ideal S1x96 .f32) (x2 : Vec Ideal S96x21 .f32) (x3 : Vec Ideal S1x21 .f32) :
    Gen.k3_pay1 x0 x1 x2 x3 = layerOut x0 x1 x2 x3 := by
  unfold Gen.k3_pay1
  dsimp only
  rw [shapeCast_self, shapeCast_self, shapeCast_self]
  unfold layerOut layerMid
  rw [← vecAddRow _ x3 broadcasts_S1x21_S5000x21, ← vecAddRow x0 x1 broadcasts_S1x96_S5000x96]
  refine congrArg (fun M : FVec Ideal S5000x21 .f32 => addf M (broadcastTo S5000x21 (x3 : FVec Ideal S1x21 .f32) broadcasts_S1x21_S5000x21)) ?_
  refine (matmul_zero_eq_mm _ rfl rfl rfl rfl rfl rfl none _ _).trans ?_
  rfl

variable (V : (c : Dev nD) → (b : Ref sig .tc) → Buf (Elt Ideal) ((c : Thread nD τ).loc b))

/-- The printed index maps, decided over the grid: the row-block windows move together along the rows, every
    other block index is zero, and the row-block index stays in its range. -/
theorem idx_facts3 : ∀ t : Fin cfg3.N, win3_0.index t (0 : Fin 2) = win3_4.index t (0 : Fin 2)
    ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (1 : Fin 2) = 0 ∧ win3_4.index t (0 : Fin 2) ≤ 9 :=
  (by decide +kernel : ∀ t : Fin grid3.N, _)

/-- What point `t` writes back is block `t` of the head of the region's four input arrays: an entry of a block's
    head depends on one row of the block, which is a row of the array. -/
theorem flushed3_eq (c : Dev nD) (t : Fin cfg3.N) :
    (Gen.dat3 V c).flushed 4 t = ((cfg3.win 4).blk t).view.read (Elt Ideal)
      (layerOut (V c main_v73 : S50000x96.Idx → EReal) (V c main_v74 : S1x96.Idx → EReal) (V c main_arg8 : S96x21.Idx → EReal) (V c main_v75 : S1x21.Idx → EReal)) := by
  show (cfg3.win 4).cut (grid3.coords t) ((Gen.dat3 V c).after 4 t) = _
  rw [Gen.after3_4]
  unfold Gen.out3_4
  rw [View.canon_unit_zero hz3]
  simp only [View.ld_unit_zero (S := S5000x96) hz3, View.ld_unit_zero (S := S1x96) hz3, View.ld_unit_zero (S := S96x21) hz3, View.ld_unit_zero (S := S1x21) hz3]
  rw [pay3_eq]
  obtain ⟨e0, e1, e2, e3, e4, e5, e6, e7, e8, e9⟩ := idx_facts3 t
  refine funext fun (j : S5000x21.Idx) => ?_
  show layerOut (Gen.iblk3 V c 0 t) (Gen.iblk3 V c 1 t) (Gen.iblk3 V c 2 t) (Gen.iblk3 V c 3 t) j
    = layerOut (V c main_v73 : S50000x96.Idx → EReal) (V c main_v74 : S1x96.Idx → EReal) (V c main_arg8 : S96x21.Idx → EReal) (V c main_v75 : S1x21.Idx → EReal) (((cfg3.win 4).blk t).view.emb j)
  refine layerOut_at _ _ _ _ _ _ _ _ j _ (fun k => ?_) (fun k => ?_) (fun k => ?_) ?_
  · show (V c main_v73 : S50000x96.Idx → EReal) (((cfg3.win 0).blk t).view.emb (ix2 (c0 j) k)) = _
    refine congrArg _ (funext fun a => Fin.ext ?_)
    match a with
    | ⟨0, _⟩ => show win3_0.index t (0 : Fin 2) * 5000 + 1 * (j 0).val = win3_4.index t (0 : Fin 2) * 5000 + 1 * (j 0).val; omega
    | ⟨1, _⟩ => show win3_0.index t (1 : Fin 2) * 96 + 1 * k.val = k.val; omega
  · show (V c main_v74 : S1x96.Idx → EReal) (((cfg3.win 1).blk t).view.emb (ix2 (0 : Fin 1) k)) = _
    refine congrArg _ (funext fun a => Fin.ext ?_)
    match a with
    | ⟨0, _⟩ => show win3_1.index t (0 : Fin 2) * 1 + 1 * 0 = 0; omega
    | ⟨1, _⟩ => show win3_1.index t (1 : Fin 2) * 96 + 1 * k.val = k.val; omega
  · show (V c main_arg8 : S96x21.Idx → EReal) (((cfg3.win 2).blk t).view.emb (ix2 k (c1 j))) = _
    refine congrArg _ (funext fun a => Fin.ext ?_)
    match a with
    | ⟨0, _⟩ => show win3_2.index t (0 : Fin 2) * 96 + 1 * k.val = k.val; omega
    | ⟨1, _⟩ => show win3_2.index t (1 : Fin 2) * 21 + 1 * (j 1).val = win3_4.index t (1 : Fin 2) * 21 + 1 * (j 1).val; omega
  · show (V c main_v75 : S1x21.Idx → EReal) (((cfg3.win 3).blk t).view.emb (ix2 (0 : Fin 1) (c1 j))) = _
    refine congrArg _ (funext fun a => Fin.ext ?_)
    match a with
    | ⟨0, _⟩ => show win3_3.index t (0 : Fin 2) * 1 + 1 * 0 = 0; omega
    | ⟨1, _⟩ => show win3_3.index t (1 : Fin 2) * 21 + 1 * (j 1).val = win3_4.index t (1 : Fin 2) * 21 + 1 * (j 1).val; omega

/-- Every row block is some point's. -/
theorem idx_onto3 : ∀ q0 : Fin 10, ∃ t : Fin cfg3.N, win3_4.index t = ![q0.val, 0] :=
  (by decide +kernel : ∀ q0 : Fin 10, ∃ t : Fin grid3.N, win3_4.index t = ![q0.val, 0])

/-- An index of the array is in point `t`'s block iff each coordinate is in the block's range on its axis. -/
theorem mem_blk3 (t : Fin cfg3.N) (i : S50000x21.Idx) :
    i ∈ ((cfg3.win 4).blk t).view.set ↔ ∀ a : Fin 2, win3_4.index t a * S5000x21.size a ≤ (i a).val ∧ (i a).val < win3_4.index t a * S5000x21.size a + S5000x21.size a := by
  show i ∈ ((View.whole main_v76).slice (win3_4.rect t)).set ↔ _
  rw [View.set_slice_whole, Rect.mem_set_unit]
  exact Iff.rfl

/-- The blocks tile the array: row `r` is in the block of the point whose row-block index is `r / 5000`. -/
theorem cover3 (i : S50000x21.Idx) : ∃ t : Fin cfg3.N, (cfg3.win 4).flush t = true ∧ i ∈ ((cfg3.win 4).blk t).view.set := by
  have hi0 : (i 0).val < 50000 := (i 0).isLt
  have hi1 : (i 1).val < 21 := (i 1).isLt
  obtain ⟨t, ht⟩ := idx_onto3 ⟨(i 0).val / 5000, by omega⟩
  have q0 : win3_4.index t (0 : Fin 2) = (i 0).val / 5000 := congrFun ht 0
  have q1 : win3_4.index t (1 : Fin 2) = 0 := congrFun ht 1
  refine ⟨t, Gen.flush3_4 t, ?_⟩
  rw [mem_blk3]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 21 ≤ (i 1).val ∧ (i 1).val < win3_4.index t (1 : Fin 2) * 21 + 21; omega

/-- The region's output array after the run is the head of its four input arrays as the region finds them. -/
theorem final3 (c : Dev nD) : (Gen.dat3 (F := Ideal) V c).arrAt 4 cfg3.N
    = layerOut (V c main_v73 : S50000x96.Idx → EReal) (V c main_v74 : S1x96.Idx → EReal) (V c main_arg8 : S96x21.Idx → EReal) (V c main_v75 : S1x21.Idx → EReal) :=
  (Gen.dat3 V c).arrAt_eq_of_cover 4 _ (fun t _ => flushed3_eq V c t) (cover3)

end Cert.KernelIdeal.RegionVal

end
-- ==== Proof.RefOps.lean ====
/-
  The reference program's host operations as literal lists, every call of a module-local function replaced by the
  callee's operations over the call's own buffers (a call means its callee's body run on the operands).  The lists are
  cut at the stages of the network: the graph side (computed once, in three parts: the edge ends, the degree's inverse square root, the weights), then per layer the dense product, the aggregation
  over the graph, the bias row and the leaky rectifier, and finally the head.  The program is the straight line of the
  concatenation of the stages; no buffer and no semaphore of its signature is scoped; every operation touches
  references of the first core only.  For each stage the buffers its operations write are listed, so that a buffer
  outside the list is known to keep its contents through the stage.
-/
import proofs.«102307_j46583215292438_1_alg».proof.Proof.Gen.ReferenceIdeal
import Idealize.ShloMosaic.Lib.StableHlo.Run

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

/-- A property of every element of two lists holds of every element of their concatenation. -/
theorem forall_app {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

/-- The graph side, first part: the two rows of the edge list, each with the self-loops (the node numbers in order) appended. -/
abbrev opsPrepA : List (HloOp τ sig (Elt F)) :=
  [ StableHlo.nullary main_v0 (iotaInDim S50000 32 0),
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]
theorem opsPrepA_sub : (opsPrepA : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub ..⟩
/-- The buffers these operations write. -/
abbrev opsPrepA_W : List (Ref sig .tc) := [main_v0, main_v1, main_v2, main_v3, main_v4, main_v5, main_v6]
set_option maxRecDepth 8192 in
theorem opsPrepA_writes : (opsPrepA : List (HloOp τ sig (Elt F))).Forall fun op => op.writes ⊆ (opsPrepA_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The graph side, second part: the degree and its inverse square root where positive, zero elsewhere (the selection against zero inlined from the called function). -/
abbrev opsPrepB : List (HloOp τ sig (Elt F)) :=
  [ StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_2 (constant S_ .f32 0x00000000#32),
    StableHlo.TRef.unary (.of main_cst_2 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S50000, .f32⟩) (broadcastInDim S50000 ![] bcast_S_S50000),
    StableHlo.TRef.ternary (.of main_v12 : StableHlo.TRef sig ⟨S50000, .i1⟩) (.of main_v13 : StableHlo.TRef sig ⟨S50000, .f32⟩) (.of main_call0_v1 : StableHlo.TRef sig ⟨S50000, .f32⟩) (.of main_v14 : StableHlo.TRef sig ⟨S50000, .f32⟩) select ]
theorem opsPrepB_sub : (opsPrepB : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub ..⟩
/-- The buffers these operations write. -/
abbrev opsPrepB_W : List (Ref sig .tc) := [main_cst, main_v7, main_cst_0, main_v8, main_v9, main_v10, main_cst_1, main_v11, main_v12, main_v13, main_cst_2, main_call0_v0, main_call0_v1, main_v14]
set_option maxRecDepth 8192 in
theorem opsPrepB_writes : (opsPrepB : List (HloOp τ sig (Elt F))).Forall fun op => op.writes ⊆ (opsPrepB_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The graph side, third part: a negative node number counted from the end, the factor gathered at every edge's two ends, and the edges' weights, their product. -/
abbrev opsPrepC : List (HloOp τ sig (Elt F)) :=
  [ StableHlo.nullary main_c (constantI S_ 32 0#32),
    StableHlo.unary main_c main_v15 (broadcastInDim S850000 ![] bcast_S_S850000 : (⟨S_, .i32⟩ : BufTy).Contents (Elt F) → (⟨S850000, .i32⟩ : BufTy).Contents (Elt F)),
    StableHlo.binary main_v3 main_v15 main_v16 (cmpi .slt : (⟨S850000, .i32⟩ : BufTy).Contents (Elt F) → (⟨S850000, .i32⟩ : BufTy).Contents (Elt F) → (⟨S850000, .i1⟩ : BufTy).Contents (Elt F)),
    StableHlo.nullary main_c_3 (constantI S_ 32 50000#32),
    StableHlo.unary main_c_3 main_v17 (broadcastInDim S850000 ![] bcast_S_S850000 : (⟨S_, .i32⟩ : BufTy).Contents (Elt F) → (⟨S850000, .i32⟩ : BufTy).Contents (Elt F)),
    StableHlo.binary main_v3 main_v17 main_v18 (addi : (⟨S850000, .i32⟩ : BufTy).Contents (Elt F) → (⟨S850000, .i32⟩ : BufTy).Contents (Elt F) → (⟨S850000, .i32⟩ : BufTy).Contents (Elt F)),
    StableHlo.ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v19 main_v20 (broadcastInDim S850000x1 ![0] bcast_S850000_S850000x1_0 : (⟨S850000, .i32⟩ : BufTy).Contents (Elt F) → (⟨S850000x1, .i32⟩ : BufTy).Contents (Elt F)),
    StableHlo.binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_4 (constantI S_ 32 0#32),
    StableHlo.unary main_c_4 main_v22 (broadcastInDim S850000 ![] bcast_S_S850000 : (⟨S_, .i32⟩ : BufTy).Contents (Elt F) → (⟨S850000, .i32⟩ : BufTy).Contents (Elt F)),
    StableHlo.binary main_v6 main_v22 main_v23 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v24 (broadcastInDim S850000 ![] bcast_S_S850000 : (⟨S_, .i32⟩ : BufTy).Contents (Elt F) → (⟨S850000, .i32⟩ : BufTy).Contents (Elt F)),
    StableHlo.binary main_v6 main_v24 main_v25 (addi : (⟨S850000, .i32⟩ : BufTy).Contents (Elt F) → (⟨S850000, .i32⟩ : BufTy).Contents (Elt F) → (⟨S850000, .i32⟩ : BufTy).Contents (Elt F)),
    StableHlo.ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v26 main_v27 (broadcastInDim S850000x1 ![0] bcast_S850000_S850000x1_0 : (⟨S850000, .i32⟩ : BufTy).Contents (Elt F) → (⟨S850000x1, .i32⟩ : BufTy).Contents (Elt F)),
    StableHlo.binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v21 main_v28 main_v29 (mulf : (⟨S850000, .f32⟩ : BufTy).Contents (Elt F) → (⟨S850000, .f32⟩ : BufTy).Contents (Elt F) → (⟨S850000, .f32⟩ : BufTy).Contents (Elt F)) ]
theorem opsPrepC_sub : (opsPrepC : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
/-- The buffers these operations write. -/
abbrev opsPrepC_W : List (Ref sig .tc) := [main_c, main_v15, main_v16, main_c_3, main_v17, main_v18, main_v19, main_v20, main_v21, main_c_4, main_v22, main_v23, main_c_5, main_v24, main_v25, main_v26, main_v27, main_v28, main_v29]
set_option maxRecDepth 8192 in
theorem opsPrepC_writes : (opsPrepC : List (HloOp τ sig (Elt F))).Forall fun op => op.writes ⊆ (opsPrepC_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Layer 1: the product of the node features with the first weight matrix. -/
abbrev opsDot1 : List (HloOp τ sig (Elt F)) :=
  [ StableHlo.binary main_arg0 main_arg2 main_v30 ((fun l r => Host.dotGeneral dot_S50000x128_S128x96_S50000x96_1_0_0_1_n_n none l r) : (⟨S50000x128, .f32⟩ : BufTy).Contents (Elt F) → (⟨S128x96, .f32⟩ : BufTy).Contents (Elt F) → (⟨S50000x96, .f32⟩ : BufTy).Contents (Elt F)) ]
theorem opsDot1_sub : (opsDot1 : List (HloOp τ sig (Elt F))).Forall fun op => op.bufs ⊆ tcRefs τ sig :=
  binary_bufs_sub ..
/-- The buffers these operations write. -/
abbrev opsDot1_W : List (Ref sig .tc) := [main_v30]
set_option maxRecDepth 8192 in
theorem opsDot1_writes : (opsDot1 : List (HloOp τ sig (Elt F))).Forall fun op => op.writes ⊆ (opsDot1_W.map (Proc.devRef (τ := τ) .tc)).toFinset := by
  simp only [List.Forall]; exact by simp only [nullary_writes, unary_writes, binary_writes, ternary_writes, reshape_writes, Finset.singleton_subset_iff, List.mem_toFinset]; exact List.mem_map_of_mem (by decide)

/-- Layer 1: the aggregation over the graph. -/
abbrev opsAgg1 : List (HloOp τ sig (Elt F)) :=
  [ StableHlo.unary main_v29 main_v31 (broadcastInDim S850000x1 ![0] bcast_S850000_S850000x1_0 : (⟨S850000, .f32⟩ : BufTy).Contents (Elt F) → (⟨S850000x1, .f32⟩ : BufTy).Contents (Elt F)),
    StableHlo.nullary main_c_6 (constantI S_ 32 0#32),
    StableHlo.unary main_c_6 main_v32 (broadcastInDim S850000 ![] bcast_S_S850000 : (⟨S_, .i32⟩ : BufTy).Contents (Elt F) → (⟨S850000, .i32⟩ : BufTy).Contents (Elt F)),
    StableHlo.binary main_v3 main_v32 main_v33 (cmpi .slt : (⟨S850000, .i32⟩ : BufTy).Contents (Elt F) → (⟨S850000, .i32⟩ : BufTy).Contents (Elt F) → (⟨S850000, .i1⟩ : BufTy).Contents (Elt F)),
    StableHlo.nullary main_c_7 (constantI S_ 32 50000#32),
    StableHlo.unary main_c_7 main_v34 (broadcastInDim S850000 ![] bcast_S_S850000 : (⟨S_, .i32⟩ : BufTy).Contents (Elt F) → (⟨S850000, .i32⟩ : BufTy).Contents (Elt F)),
    StableHlo.binary main_v3 main_v34 main_v35 (addi : (⟨S850000, .i32⟩ : BufTy).Contents (Elt F) → (⟨S850000, .i32⟩ : BufTy).Contents (Elt F) → (⟨S850000, .i32⟩ : BufTy).Contents (Elt F)),
    StableHlo.ternary main_v33 main_v35 main_v3 main_v36 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v36 main_v37 (broadcastInDim S850000x1 ![0] bcast_S850000_S850000x1_0 : (⟨S850000, .i32⟩ : BufTy).Contents (Elt F) → (⟨S850000x1, .i32⟩ : BufTy).Contents (Elt F)),
    StableHlo.binary main_v30 main_v37 main_v38 ((fun x i => Host.gather gather_S50000x96_S850000x1_S850000x96_1_0_n_n_0_1_196 x i) : (⟨S50000x96, .f32⟩ : BufTy).Contents (Elt F) → (⟨S850000x1, .i32⟩ : BufTy).Contents (Elt F) → (⟨S850000x96, .f32⟩ : BufTy).Contents (Elt F)),
    StableHlo.unary main_v31 main_v39 (broadcastInDim S850000x96 ![0, 1] bcast_S850000x1_S850000x96_0_1 : (⟨S850000x1, .f32⟩ : BufTy).Contents (Elt F) → (⟨S850000x96, .f32⟩ : BufTy).Contents (Elt F)),
    StableHlo.binary main_v39 main_v38 main_v40 (mulf : (⟨S850000x96, .f32⟩ : BufTy).Contents (Elt F) → (⟨S850000x96, .f32⟩ : BufTy).Contents (Elt F) → (⟨S850000x96, .f32⟩ : BufTy).Contents (Elt F)),
    StableHlo.nullary main_cst_8 (constant S_ .f32 0x00000000#32),
    StableHlo.unary main_cst_8 main_v41 (broadcastInDim S50000x96 ![] bcast_S_S50000x96 : (⟨S_, .f32⟩ : BufTy).Contents (Elt F) → (⟨S50000x96, .f32⟩ : BufTy).Contents (Elt F)),
    StableHlo.unary main_v6 main_v42 (broadcastInDim S850000x1 ![0] bcast_S850000_S850000x1_0 : (⟨S850000, .i32⟩ : BufTy).Contents (Elt F) → (⟨S850000x1, .i32⟩ : BufTy).Contents (Elt F)),
    StableHlo.ternary main_v41 main_v42 main_v40 main_v43 ((fun x i u => Host.scatterAdd scatter_S50000x96_S850000x1_S850000x96_1_0_0_1 x i u) : (⟨S50000x96, .f32⟩ : BufTy).Contents (Elt F) → (⟨S850000x1, .i32⟩ : BufTy).Contents (Elt F) → (⟨S850000x96, .f32⟩ : BufTy).Contents (Elt F) → (⟨S50000x96, .f32⟩ : BufTy).Contents (Elt F)) ]
theorem opsAgg1_sub : (opsAgg1 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩
/-- The buffers these operations write. -/
abbrev opsAgg1_W : List (Ref sig .tc) := [main_v31, main_c_6, main_v32, main_v33, main_c_7, main_v34, main_v35, main_v36, main_v37, main_v38, main_v39, main_v40, main_cst_8, main_v41, main_v42, main_v43]
set_option maxRecDepth 8192 in
theorem opsAgg1_writes : (opsAgg1 : List (HloOp τ sig (Elt F))).Forall fun op => op.writes ⊆ (opsAgg1_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Layer 1: the bias row added to every row. -/
abbrev opsBias1 : List (HloOp τ sig (Elt F)) :=
  [ StableHlo.unary main_arg3 main_v44 (broadcastInDim S1x96 ![1] bcast_S96_S1x96_1 : (⟨S96, .f32⟩ : BufTy).Contents (Elt F) → (⟨S1x96, .f32⟩ : BufTy).Contents (Elt F)),
    StableHlo.unary main_v44 main_v45 (broadcastInDim S50000x96 ![0, 1] bcast_S1x96_S50000x96_0_1 : (⟨S1x96, .f32⟩ : BufTy).Contents (Elt F) → (⟨S50000x96, .f32⟩ : BufTy).Contents (Elt F)),
    StableHlo.binary main_v43 main_v45 main_v46 (addf : (⟨S50000x96, .f32⟩ : BufTy).Contents (Elt F) → (⟨S50000x96, .f32⟩ : BufTy).Contents (Elt F) → (⟨S50000x96, .f32⟩ : BufTy).Contents (Elt F)) ]
theorem opsBias1_sub : (opsBias1 : List (HloOp τ sig (Elt F))).Forall fun op => op.bufs ⊆ tcRefs τ sig :=
  ⟨unary_bufs_sub .., unary_bufs_sub .., binary_bufs_sub ..⟩
/-- The buffers these operations write. -/
abbrev opsBias1_W : List (Ref sig .tc) := [main_v44, main_v45, main_v46]
set_option maxRecDepth 8192 in
theorem opsBias1_writes : (opsBias1 : List (HloOp τ sig (Elt F))).Forall fun op => op.writes ⊆ (opsBias1_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Layer 1: the leaky rectifier, the called function's operations inlined. -/
abbrev opsLrelu1 : List (HloOp τ sig (Elt F)) :=
  [ StableHlo.nullary main_cst_9 (constant S_ .f32 0x3C23D70A#32),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S50000x96, .f32⟩) (broadcastInDim S50000x96 ![] bcast_S_S50000x96),
    StableHlo.TRef.binary (.of main_v46 : StableHlo.TRef sig ⟨S50000x96, .f32⟩) (.of main_call1_v0 : StableHlo.TRef sig ⟨S50000x96, .f32⟩) (.of main_call1_v1 : StableHlo.TRef sig ⟨S50000x96, .i1⟩) (cmpf .oge),
    StableHlo.TRef.unary (.of main_cst_9 : StableHlo.TRef sig ⟨S_, .f32⟩) (.of main_call1_v2 : StableHlo.TRef sig ⟨S_, .f32⟩) id,
    StableHlo.TRef.unary (.of main_call1_v2 : StableHlo.TRef sig ⟨S_, .f32⟩) (.of main_call1_v3 : StableHlo.TRef sig ⟨S50000x96, .f32⟩) (broadcastInDim S50000x96 ![] bcast_S_S50000x96),
    StableHlo.TRef.binary (.of main_call1_v3 : StableHlo.TRef sig ⟨S50000x96, .f32⟩) (.of main_v46 : StableHlo.TRef sig ⟨S50000x96, .f32⟩) (.of main_call1_v4 : StableHlo.TRef sig ⟨S50000x96, .f32⟩) mulf,
    StableHlo.TRef.ternary (.of main_call1_v1 : StableHlo.TRef sig ⟨S50000x96, .i1⟩) (.of main_v46 : StableHlo.TRef sig ⟨S50000x96, .f32⟩) (.of main_call1_v4 : StableHlo.TRef sig ⟨S50000x96, .f32⟩) (.of main_v47 : StableHlo.TRef sig ⟨S50000x96, .f32⟩) select ]
theorem opsLrelu1_sub : (opsLrelu1 : List (HloOp τ sig (Elt F))).Forall fun op => op.bufs ⊆ tcRefs τ sig :=
  ⟨nullary_bufs_sub .., nullary_bufs_sub .., unary_bufs_sub .., binary_bufs_sub .., unary_bufs_sub .., unary_bufs_sub .., binary_bufs_sub .., ternary_bufs_sub ..⟩
/-- The buffers these operations write. -/
abbrev opsLrelu1_W : List (Ref sig .tc) := [main_cst_9, main_call1_cst, main_call1_v0, main_call1_v1, main_call1_v2, main_call1_v3, main_call1_v4, main_v47]
set_option maxRecDepth 8192 in
theorem opsLrelu1_writes : (opsLrelu1 : List (HloOp τ sig (Elt F))).Forall fun op => op.writes ⊆ (opsLrelu1_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Layer 2: the product with the second weight matrix. -/
abbrev opsDot2 : List (HloOp τ sig (Elt F)) :=
  [ StableHlo.binary main_v47 main_arg4 main_v48 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)) ]
theorem opsDot2_sub : (opsDot2 : List (HloOp τ sig (Elt F))).Forall fun op => op.bufs ⊆ tcRefs τ sig :=
  binary_bufs_sub ..
/-- The buffers these operations write. -/
abbrev opsDot2_W : List (Ref sig .tc) := [main_v48]
set_option maxRecDepth 8192 in
theorem opsDot2_writes : (opsDot2 : List (HloOp τ sig (Elt F))).Forall fun op => op.writes ⊆ (opsDot2_W.map (Proc.devRef (τ := τ) .tc)).toFinset := by
  simp only [List.Forall]; exact by simp only [nullary_writes, unary_writes, binary_writes, ternary_writes, reshape_writes, Finset.singleton_subset_iff, List.mem_toFinset]; exact List.mem_map_of_mem (by decide)

/-- Layer 2: the aggregation over the graph. -/
abbrev opsAgg2 : List (HloOp τ sig (Elt F)) :=
  [ StableHlo.unary main_v29 main_v49 (broadcastInDim S850000x1 ![0] bcast_S850000_S850000x1_0 : (⟨S850000, .f32⟩ : BufTy).Contents (Elt F) → (⟨S850000x1, .f32⟩ : BufTy).Contents (Elt F)),
    StableHlo.nullary main_c_10 (constantI S_ 32 0#32),
    StableHlo.unary main_c_10 main_v50 (broadcastInDim S850000 ![] bcast_S_S850000 : (⟨S_, .i32⟩ : BufTy).Contents (Elt F) → (⟨S850000, .i32⟩ : BufTy).Contents (Elt F)),
    StableHlo.binary main_v3 main_v50 main_v51 (cmpi .slt : (⟨S850000, .i32⟩ : BufTy).Contents (Elt F) → (⟨S850000, .i32⟩ : BufTy).Contents (Elt F) → (⟨S850000, .i1⟩ : BufTy).Contents (Elt F)),
    StableHlo.nullary main_c_11 (constantI S_ 32 50000#32),
    StableHlo.unary main_c_11 main_v52 (broadcastInDim S850000 ![] bcast_S_S850000 : (⟨S_, .i32⟩ : BufTy).Contents (Elt F) → (⟨S850000, .i32⟩ : BufTy).Contents (Elt F)),
    StableHlo.binary main_v3 main_v52 main_v53 (addi : (⟨S850000, .i32⟩ : BufTy).Contents (Elt F) → (⟨S850000, .i32⟩ : BufTy).Contents (Elt F) → (⟨S850000, .i32⟩ : BufTy).Contents (Elt F)),
    StableHlo.ternary main_v51 main_v53 main_v3 main_v54 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v54 main_v55 (broadcastInDim S850000x1 ![0] bcast_S850000_S850000x1_0 : (⟨S850000, .i32⟩ : BufTy).Contents (Elt F) → (⟨S850000x1, .i32⟩ : BufTy).Contents (Elt F)),
    StableHlo.binary main_v48 main_v55 main_v56 ((fun x i => Host.gather gather_S50000x96_S850000x1_S850000x96_1_0_n_n_0_1_196 x i) : (⟨S50000x96, .f32⟩ : BufTy).Contents (Elt F) → (⟨S850000x1, .i32⟩ : BufTy).Contents (Elt F) → (⟨S850000x96, .f32⟩ : BufTy).Contents (Elt F)),
    StableHlo.unary main_v49 main_v57 (broadcastInDim S850000x96 ![0, 1] bcast_S850000x1_S850000x96_0_1 : (⟨S850000x1, .f32⟩ : BufTy).Contents (Elt F) → (⟨S850000x96, .f32⟩ : BufTy).Contents (Elt F)),
    StableHlo.binary main_v57 main_v56 main_v58 (mulf : (⟨S850000x96, .f32⟩ : BufTy).Contents (Elt F) → (⟨S850000x96, .f32⟩ : BufTy).Contents (Elt F) → (⟨S850000x96, .f32⟩ : BufTy).Contents (Elt F)),
    StableHlo.nullary main_cst_12 (constant S_ .f32 0x00000000#32),
    StableHlo.unary main_cst_12 main_v59 (broadcastInDim S50000x96 ![] bcast_S_S50000x96 : (⟨S_, .f32⟩ : BufTy).Contents (Elt F) → (⟨S50000x96, .f32⟩ : BufTy).Contents (Elt F)),
    StableHlo.unary main_v6 main_v60 (broadcastInDim S850000x1 ![0] bcast_S850000_S850000x1_0 : (⟨S850000, .i32⟩ : BufTy).Contents (Elt F) → (⟨S850000x1, .i32⟩ : BufTy).Contents (Elt F)),
    StableHlo.ternary main_v59 main_v60 main_v58 main_v61 ((fun x i u => Host.scatterAdd scatter_S50000x96_S850000x1_S850000x96_1_0_0_1 x i u) : (⟨S50000x96, .f32⟩ : BufTy).Contents (Elt F) → (⟨S850000x1, .i32⟩ : BufTy).Contents (Elt F) → (⟨S850000x96, .f32⟩ : BufTy).Contents (Elt F) → (⟨S50000x96, .f32⟩ : BufTy).Contents (Elt F)) ]
theorem opsAgg2_sub : (opsAgg2 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩
/-- The buffers these operations write. -/
abbrev opsAgg2_W : List (Ref sig .tc) := [main_v49, main_c_10, main_v50, main_v51, main_c_11, main_v52, main_v53, main_v54, main_v55, main_v56, main_v57, main_v58, main_cst_12, main_v59, main_v60, main_v61]
set_option maxRecDepth 8192 in
theorem opsAgg2_writes : (opsAgg2 : List (HloOp τ sig (Elt F))).Forall fun op => op.writes ⊆ (opsAgg2_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Layer 2: the bias row added to every row. -/
abbrev opsBias2 : List (HloOp τ sig (Elt F)) :=
  [ StableHlo.unary main_arg5 main_v62 (broadcastInDim S1x96 ![1] bcast_S96_S1x96_1 : (⟨S96, .f32⟩ : BufTy).Contents (Elt F) → (⟨S1x96, .f32⟩ : BufTy).Contents (Elt F)),
    StableHlo.unary main_v62 main_v63 (broadcastInDim S50000x96 ![0, 1] bcast_S1x96_S50000x96_0_1 : (⟨S1x96, .f32⟩ : BufTy).Contents (Elt F) → (⟨S50000x96, .f32⟩ : BufTy).Contents (Elt F)),
    StableHlo.binary main_v61 main_v63 main_v64 (addf : (⟨S50000x96, .f32⟩ : BufTy).Contents (Elt F) → (⟨S50000x96, .f32⟩ : BufTy).Contents (Elt F) → (⟨S50000x96, .f32⟩ : BufTy).Contents (Elt F)) ]
theorem opsBias2_sub : (opsBias2 : List (HloOp τ sig (Elt F))).Forall fun op => op.bufs ⊆ tcRefs τ sig :=
  ⟨unary_bufs_sub .., unary_bufs_sub .., binary_bufs_sub ..⟩
/-- The buffers these operations write. -/
abbrev opsBias2_W : List (Ref sig .tc) := [main_v62, main_v63, main_v64]
set_option maxRecDepth 8192 in
theorem opsBias2_writes : (opsBias2 : List (HloOp τ sig (Elt F))).Forall fun op => op.writes ⊆ (opsBias2_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Layer 2: the leaky rectifier, the called function's operations inlined. -/
abbrev opsLrelu2 : List (HloOp τ sig (Elt F)) :=
  [ StableHlo.nullary main_cst_13 (constant S_ .f32 0x3C23D70A#32),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S50000x96, .f32⟩) (broadcastInDim S50000x96 ![] bcast_S_S50000x96),
    StableHlo.TRef.binary (.of main_v64 : StableHlo.TRef sig ⟨S50000x96, .f32⟩) (.of main_call2_v0 : StableHlo.TRef sig ⟨S50000x96, .f32⟩) (.of main_call2_v1 : StableHlo.TRef sig ⟨S50000x96, .i1⟩) (cmpf .oge),
    StableHlo.TRef.unary (.of main_cst_13 : StableHlo.TRef sig ⟨S_, .f32⟩) (.of main_call2_v2 : StableHlo.TRef sig ⟨S_, .f32⟩) id,
    StableHlo.TRef.unary (.of main_call2_v2 : StableHlo.TRef sig ⟨S_, .f32⟩) (.of main_call2_v3 : StableHlo.TRef sig ⟨S50000x96, .f32⟩) (broadcastInDim S50000x96 ![] bcast_S_S50000x96),
    StableHlo.TRef.binary (.of main_call2_v3 : StableHlo.TRef sig ⟨S50000x96, .f32⟩) (.of main_v64 : StableHlo.TRef sig ⟨S50000x96, .f32⟩) (.of main_call2_v4 : StableHlo.TRef sig ⟨S50000x96, .f32⟩) mulf,
    StableHlo.TRef.ternary (.of main_call2_v1 : StableHlo.TRef sig ⟨S50000x96, .i1⟩) (.of main_v64 : StableHlo.TRef sig ⟨S50000x96, .f32⟩) (.of main_call2_v4 : StableHlo.TRef sig ⟨S50000x96, .f32⟩) (.of main_v65 : StableHlo.TRef sig ⟨S50000x96, .f32⟩) select ]
theorem opsLrelu2_sub : (opsLrelu2 : List (HloOp τ sig (Elt F))).Forall fun op => op.bufs ⊆ tcRefs τ sig :=
  ⟨nullary_bufs_sub .., nullary_bufs_sub .., unary_bufs_sub .., binary_bufs_sub .., unary_bufs_sub .., unary_bufs_sub .., binary_bufs_sub .., ternary_bufs_sub ..⟩
/-- The buffers these operations write. -/
abbrev opsLrelu2_W : List (Ref sig .tc) := [main_cst_13, main_call2_cst, main_call2_v0, main_call2_v1, main_call2_v2, main_call2_v3, main_call2_v4, main_v65]
set_option maxRecDepth 8192 in
theorem opsLrelu2_writes : (opsLrelu2 : List (HloOp τ sig (Elt F))).Forall fun op => op.writes ⊆ (opsLrelu2_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Layer 3: the product with the third weight matrix. -/
abbrev opsDot3 : List (HloOp τ sig (Elt F)) :=
  [ StableHlo.binary main_v65 main_arg6 main_v66 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)) ]
theorem opsDot3_sub : (opsDot3 : List (HloOp τ sig (Elt F))).Forall fun op => op.bufs ⊆ tcRefs τ sig :=
  binary_bufs_sub ..
/-- The buffers these operations write. -/
abbrev opsDot3_W : List (Ref sig .tc) := [main_v66]
set_option maxRecDepth 8192 in
theorem opsDot3_writes : (opsDot3 : List (HloOp τ sig (Elt F))).Forall fun op => op.writes ⊆ (opsDot3_W.map (Proc.devRef (τ := τ) .tc)).toFinset := by
  simp only [List.Forall]; exact by simp only [nullary_writes, unary_writes, binary_writes, ternary_writes, reshape_writes, Finset.singleton_subset_iff, List.mem_toFinset]; exact List.mem_map_of_mem (by decide)

/-- Layer 3: the aggregation over the graph. -/
abbrev opsAgg3 : List (HloOp τ sig (Elt F)) :=
  [ StableHlo.unary main_v29 main_v67 (broadcastInDim S850000x1 ![0] bcast_S850000_S850000x1_0 : (⟨S850000, .f32⟩ : BufTy).Contents (Elt F) → (⟨S850000x1, .f32⟩ : BufTy).Contents (Elt F)),
    StableHlo.nullary main_c_14 (constantI S_ 32 0#32),
    StableHlo.unary main_c_14 main_v68 (broadcastInDim S850000 ![] bcast_S_S850000 : (⟨S_, .i32⟩ : BufTy).Contents (Elt F) → (⟨S850000, .i32⟩ : BufTy).Contents (Elt F)),
    StableHlo.binary main_v3 main_v68 main_v69 (cmpi .slt : (⟨S850000, .i32⟩ : BufTy).Contents (Elt F) → (⟨S850000, .i32⟩ : BufTy).Contents (Elt F) → (⟨S850000, .i1⟩ : BufTy).Contents (Elt F)),
    StableHlo.nullary main_c_15 (constantI S_ 32 50000#32),
    StableHlo.unary main_c_15 main_v70 (broadcastInDim S850000 ![] bcast_S_S850000 : (⟨S_, .i32⟩ : BufTy).Contents (Elt F) → (⟨S850000, .i32⟩ : BufTy).Contents (Elt F)),
    StableHlo.binary main_v3 main_v70 main_v71 (addi : (⟨S850000, .i32⟩ : BufTy).Contents (Elt F) → (⟨S850000, .i32⟩ : BufTy).Contents (Elt F) → (⟨S850000, .i32⟩ : BufTy).Contents (Elt F)),
    StableHlo.ternary main_v69 main_v71 main_v3 main_v72 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v72 main_v73 (broadcastInDim S850000x1 ![0] bcast_S850000_S850000x1_0 : (⟨S850000, .i32⟩ : BufTy).Contents (Elt F) → (⟨S850000x1, .i32⟩ : BufTy).Contents (Elt F)),
    StableHlo.binary main_v66 main_v73 main_v74 ((fun x i => Host.gather gather_S50000x96_S850000x1_S850000x96_1_0_n_n_0_1_196 x i) : (⟨S50000x96, .f32⟩ : BufTy).Contents (Elt F) → (⟨S850000x1, .i32⟩ : BufTy).Contents (Elt F) → (⟨S850000x96, .f32⟩ : BufTy).Contents (Elt F)),
    StableHlo.unary main_v67 main_v75 (broadcastInDim S850000x96 ![0, 1] bcast_S850000x1_S850000x96_0_1 : (⟨S850000x1, .f32⟩ : BufTy).Contents (Elt F) → (⟨S850000x96, .f32⟩ : BufTy).Contents (Elt F)),
    StableHlo.binary main_v75 main_v74 main_v76 (mulf : (⟨S850000x96, .f32⟩ : BufTy).Contents (Elt F) → (⟨S850000x96, .f32⟩ : BufTy).Contents (Elt F) → (⟨S850000x96, .f32⟩ : BufTy).Contents (Elt F)),
    StableHlo.nullary main_cst_16 (constant S_ .f32 0x00000000#32),
    StableHlo.unary main_cst_16 main_v77 (broadcastInDim S50000x96 ![] bcast_S_S50000x96 : (⟨S_, .f32⟩ : BufTy).Contents (Elt F) → (⟨S50000x96, .f32⟩ : BufTy).Contents (Elt F)),
    StableHlo.unary main_v6 main_v78 (broadcastInDim S850000x1 ![0] bcast_S850000_S850000x1_0 : (⟨S850000, .i32⟩ : BufTy).Contents (Elt F) → (⟨S850000x1, .i32⟩ : BufTy).Contents (Elt F)),
    StableHlo.ternary main_v77 main_v78 main_v76 main_v79 ((fun x i u => Host.scatterAdd scatter_S50000x96_S850000x1_S850000x96_1_0_0_1 x i u) : (⟨S50000x96, .f32⟩ : BufTy).Contents (Elt F) → (⟨S850000x1, .i32⟩ : BufTy).Contents (Elt F) → (⟨S850000x96, .f32⟩ : BufTy).Contents (Elt F) → (⟨S50000x96, .f32⟩ : BufTy).Contents (Elt F)) ]
theorem opsAgg3_sub : (opsAgg3 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩
/-- The buffers these operations write. -/
abbrev opsAgg3_W : List (Ref sig .tc) := [main_v67, main_c_14, main_v68, main_v69, main_c_15, main_v70, main_v71, main_v72, main_v73, main_v74, main_v75, main_v76, main_cst_16, main_v77, main_v78, main_v79]
set_option maxRecDepth 8192 in
theorem opsAgg3_writes : (opsAgg3 : List (HloOp τ sig (Elt F))).Forall fun op => op.writes ⊆ (opsAgg3_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Layer 3: the bias row added to every row. -/
abbrev opsBias3 : List (HloOp τ sig (Elt F)) :=
  [ StableHlo.unary main_arg7 main_v80 (broadcastInDim S1x96 ![1] bcast_S96_S1x96_1 : (⟨S96, .f32⟩ : BufTy).Contents (Elt F) → (⟨S1x96, .f32⟩ : BufTy).Contents (Elt F)),
    StableHlo.unary main_v80 main_v81 (broadcastInDim S50000x96 ![0, 1] bcast_S1x96_S50000x96_0_1 : (⟨S1x96, .f32⟩ : BufTy).Contents (Elt F) → (⟨S50000x96, .f32⟩ : BufTy).Contents (Elt F)),
    StableHlo.binary main_v79 main_v81 main_v82 (addf : (⟨S50000x96, .f32⟩ : BufTy).Contents (Elt F) → (⟨S50000x96, .f32⟩ : BufTy).Contents (Elt F) → (⟨S50000x96, .f32⟩ : BufTy).Contents (Elt F)) ]
theorem opsBias3_sub : (opsBias3 : List (HloOp τ sig (Elt F))).Forall fun op => op.bufs ⊆ tcRefs τ sig :=
  ⟨unary_bufs_sub .., unary_bufs_sub .., binary_bufs_sub ..⟩
/-- The buffers these operations write. -/
abbrev opsBias3_W : List (Ref sig .tc) := [main_v80, main_v81, main_v82]
set_option maxRecDepth 8192 in
theorem opsBias3_writes : (opsBias3 : List (HloOp τ sig (Elt F))).Forall fun op => op.writes ⊆ (opsBias3_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Layer 3: the leaky rectifier, the called function's operations inlined. -/
abbrev opsLrelu3 : List (HloOp τ sig (Elt F)) :=
  [ StableHlo.nullary main_cst_17 (constant S_ .f32 0x3C23D70A#32),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S50000x96, .f32⟩) (broadcastInDim S50000x96 ![] bcast_S_S50000x96),
    StableHlo.TRef.binary (.of main_v82 : StableHlo.TRef sig ⟨S50000x96, .f32⟩) (.of main_call3_v0 : StableHlo.TRef sig ⟨S50000x96, .f32⟩) (.of main_call3_v1 : StableHlo.TRef sig ⟨S50000x96, .i1⟩) (cmpf .oge),
    StableHlo.TRef.unary (.of main_cst_17 : StableHlo.TRef sig ⟨S_, .f32⟩) (.of main_call3_v2 : StableHlo.TRef sig ⟨S_, .f32⟩) id,
    StableHlo.TRef.unary (.of main_call3_v2 : StableHlo.TRef sig ⟨S_, .f32⟩) (.of main_call3_v3 : StableHlo.TRef sig ⟨S50000x96, .f32⟩) (broadcastInDim S50000x96 ![] bcast_S_S50000x96),
    StableHlo.TRef.binary (.of main_call3_v3 : StableHlo.TRef sig ⟨S50000x96, .f32⟩) (.of main_v82 : StableHlo.TRef sig ⟨S50000x96, .f32⟩) (.of main_call3_v4 : StableHlo.TRef sig ⟨S50000x96, .f32⟩) mulf,
    StableHlo.TRef.ternary (.of main_call3_v1 : StableHlo.TRef sig ⟨S50000x96, .i1⟩) (.of main_v82 : StableHlo.TRef sig ⟨S50000x96, .f32⟩) (.of main_call3_v4 : StableHlo.TRef sig ⟨S50000x96, .f32⟩) (.of main_v83 : StableHlo.TRef sig ⟨S50000x96, .f32⟩) select ]
theorem opsLrelu3_sub : (opsLrelu3 : List (HloOp τ sig (Elt F))).Forall fun op => op.bufs ⊆ tcRefs τ sig :=
  ⟨nullary_bufs_sub .., nullary_bufs_sub .., unary_bufs_sub .., binary_bufs_sub .., unary_bufs_sub .., unary_bufs_sub .., binary_bufs_sub .., ternary_bufs_sub ..⟩
/-- The buffers these operations write. -/
abbrev opsLrelu3_W : List (Ref sig .tc) := [main_cst_17, main_call3_cst, main_call3_v0, main_call3_v1, main_call3_v2, main_call3_v3, main_call3_v4, main_v83]
set_option maxRecDepth 8192 in
theorem opsLrelu3_writes : (opsLrelu3 : List (HloOp τ sig (Elt F))).Forall fun op => op.writes ⊆ (opsLrelu3_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The head: the product with the last weight matrix and its bias row. -/
abbrev opsHead : List (HloOp τ sig (Elt F)) :=
  [ StableHlo.binary main_v83 main_arg8 main_v84 ((fun l r => Host.dotGeneral dot_S50000x96_S96x21_S50000x21_1_0_0_1_n_n none l r) : (⟨S50000x96, .f32⟩ : BufTy).Contents (Elt F) → (⟨S96x21, .f32⟩ : BufTy).Contents (Elt F) → (⟨S50000x21, .f32⟩ : BufTy).Contents (Elt F)),
    StableHlo.unary main_arg9 main_v85 (broadcastInDim S1x21 ![1] bcast_S21_S1x21_1 : (⟨S21, .f32⟩ : BufTy).Contents (Elt F) → (⟨S1x21, .f32⟩ : BufTy).Contents (Elt F)),
    StableHlo.unary main_v85 main_v86 (broadcastInDim S50000x21 ![0, 1] bcast_S1x21_S50000x21_0_1 : (⟨S1x21, .f32⟩ : BufTy).Contents (Elt F) → (⟨S50000x21, .f32⟩ : BufTy).Contents (Elt F)),
    StableHlo.binary main_v84 main_v86 main_v87 (addf : (⟨S50000x21, .f32⟩ : BufTy).Contents (Elt F) → (⟨S50000x21, .f32⟩ : BufTy).Contents (Elt F) → (⟨S50000x21, .f32⟩ : BufTy).Contents (Elt F)) ]
theorem opsHead_sub : (opsHead : List (HloOp τ sig (Elt F))).Forall fun op => op.bufs ⊆ tcRefs τ sig :=
  ⟨binary_bufs_sub .., unary_bufs_sub .., unary_bufs_sub .., binary_bufs_sub ..⟩
/-- The buffers these operations write. -/
abbrev opsHead_W : List (Ref sig .tc) := [main_v84, main_v85, main_v86, main_v87]
set_option maxRecDepth 8192 in
theorem opsHead_writes : (opsHead : List (HloOp τ sig (Elt F))).Forall fun op => op.writes ⊆ (opsHead_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The operations of the program's first window. -/
abbrev ops_part0 : List (HloOp τ sig (Elt F)) := opsPrepA ++ (opsPrepB ++ (opsPrepC ++ (opsDot1 ++ (opsAgg1 ++ (opsBias1 ++ (opsLrelu1))))))
/-- The operations of the program's second window. -/
abbrev ops_part1 : List (HloOp τ sig (Elt F)) := opsDot2 ++ (opsAgg2 ++ (opsBias2 ++ (opsLrelu2 ++ (opsDot3 ++ (opsAgg3 ++ (opsBias3 ++ (opsLrelu3 ++ (opsHead))))))))
/-- All the program's operations, in order. -/
abbrev ops : List (HloOp τ sig (Elt F)) := ops_part0 ++ ops_part1

set_option maxRecDepth 8192 in
theorem main_part0_eq (c : Dev nD) : main_part0 (F := F) c = StableHlo.seq ops_part0 := rfl
set_option maxRecDepth 8192 in
theorem main_part1_eq (c : Dev nD) : main_part1 (F := F) c = StableHlo.seq ops_part1 := rfl
set_option maxRecDepth 8192 in
/-- The program is the straight line of its operations. -/
theorem main_eq (c : Dev nD) : main (F := F) c = StableHlo.seq ops := by
  simp only [ops, seq_append, ← main_part0_eq c, ← main_part1_eq c]
  rfl
set_option maxRecDepth 8192 in
theorem scopedRefs_eq : (Finset.univ.filter fun b : Ref sig .tc => b.isScoped) = ∅ := by decide
theorem scopedSems_eq : (Finset.univ.filter fun sm : SemLoc sig => sm.isScoped .tc) = ∅ := by decide
theorem ops_part0_sub : (ops_part0 : List (HloOp τ sig (Elt F))).Forall fun op => op.bufs ⊆ tcRefs τ sig :=
  forall_app opsPrepA_sub (forall_app opsPrepB_sub (forall_app opsPrepC_sub (forall_app opsDot1_sub (forall_app opsAgg1_sub (forall_app opsBias1_sub (opsLrelu1_sub))))))
theorem ops_part1_sub : (ops_part1 : List (HloOp τ sig (Elt F))).Forall fun op => op.bufs ⊆ tcRefs τ sig :=
  forall_app opsDot2_sub (forall_app opsAgg2_sub (forall_app opsBias2_sub (forall_app opsLrelu2_sub (forall_app opsDot3_sub (forall_app opsAgg3_sub (forall_app opsBias3_sub (forall_app opsLrelu3_sub (opsHead_sub))))))))
theorem ops_sub : (ops : List (HloOp τ sig (Elt F))).Forall fun op => op.bufs ⊆ tcRefs τ sig :=
  forall_app ops_part0_sub ops_part1_sub

end Cert.ReferenceIdeal.RefRun

end
-- ==== Proof.RAgg.lean ====
/-
  The graph side of a layer, as the host spells it: from the edge list (two rows of node numbers) the source and the
  target of every edge, with one self-loop per node appended; the in-degree of every node as a sum of ones over the
  edges that arrive at it; its inverse square root where positive and zero elsewhere; an edge's weight, the product of
  that factor at its two ends; and the aggregation of a feature array: every edge carries its source's row times
  its weight to its target, where the arriving rows are summed.  A negative node number counts from the end
  (`wrap`), as an indexing of an array does.
-/
import proofs.«102307_j46583215292438_1_alg».proof.Proof.Gen.ReferenceIdeal
import Idealize.ShloMosaic.PureOps.Ideal

noncomputable section

namespace Cert.ReferenceIdeal.Agg

open Idealize.ShloMosaic Cert.ReferenceIdeal Cert.ReferenceIdeal.Facts₀ Cert.ReferenceIdeal.Facts

/-- The node numbers `0 … 49999`: the self-loops. -/
def loops : IVec S50000 32 := iotaInDim S50000 32 0

/-- Row `r` of the edge list followed by the self-loops. -/
def ends0 (ei : IVec S2x800000 32) : IVec S850000 32 :=
  concatenate S850000 0 [⟨S800000, shapeCast S800000 (extractStridedSlice S1x800000 ![0, 0] ei slices_S2x800000_S1x800000_0_0) shapeCasts_S1x800000_S800000⟩, ⟨S50000, loops⟩] concatenates_S800000_S50000_S850000_d0

def ends1 (ei : IVec S2x800000 32) : IVec S850000 32 :=
  concatenate S850000 0 [⟨S800000, shapeCast S800000 (extractStridedSlice S1x800000 ![1, 0] ei slices_S2x800000_S1x800000_1_0) shapeCasts_S1x800000_S800000⟩, ⟨S50000, loops⟩] concatenates_S800000_S50000_S850000_d0

/-- A vector of per-edge values as one column. -/
def col {α : Type} (v : S850000.Idx → α) : S850000x1.Idx → α := broadcastInDim S850000x1 ![0] bcast_S850000_S850000x1_0 v

/-- A negative node number counts from the end. -/
def wrap (v : IVec S850000 32) : IVec S850000 32 :=
  select (cmpi .slt v (broadcastInDim S850000 ![] bcast_S_S850000 (constantI S_ 32 0#32)))
    (addi v (broadcastInDim S850000 ![] bcast_S_S850000 (constantI S_ 32 50000#32))) v

/-- The in-degree, self-loop included: ones summed at every edge's target. -/
def deg (ei : IVec S2x800000 32) : FVec Ideal S50000 .f32 :=
  Host.scatterAdd (F := Ideal) scatter_S50000_S850000x1_S850000_n_0_0_1
    (broadcastInDim S50000 ![] bcast_S_S50000 (constant (F := Ideal) S_ .f32 0x00000000#32))
    (col (ends1 ei))
    (broadcastInDim S850000 ![] bcast_S_S850000 (constant (F := Ideal) S_ .f32 0x3F800000#32))

/-- The inverse square root of the degree where it is positive, zero elsewhere. -/
def dinv (ei : IVec S2x800000 32) : FVec Ideal S50000 .f32 :=
  select (cmpf .ogt (deg ei) (broadcastInDim S50000 ![] bcast_S_S50000 (constant (F := Ideal) S_ .f32 0x00000000#32)))
    (Host.rsqrt (F := Ideal) (deg ei))
    (broadcastInDim S50000 ![] bcast_S_S50000 (constant (F := Ideal) S_ .f32 0x00000000#32))

/-- An edge's weight: the factor at its source times the factor at its target. -/
def nrm (ei : IVec S2x800000 32) : FVec Ideal S850000 .f32 :=
  mulf (Host.gather gather_S50000_S850000x1_S850000_n_0_n_n_0_1_1 (dinv ei) (col (wrap (ends0 ei))))
    (Host.gather gather_S50000_S850000x1_S850000_n_0_n_n_0_1_1 (dinv ei) (col (wrap (ends1 ei))))

/-- The aggregation of a feature array over the graph. -/
def agg (ei : IVec S2x800000 32) (z : FVec Ideal S50000x96 .f32) : FVec Ideal S50000x96 .f32 :=
  Host.scatterAdd (F := Ideal) scatter_S50000x96_S850000x1_S850000x96_1_0_0_1
    (broadcastInDim S50000x96 ![] bcast_S_S50000x96 (constant (F := Ideal) S_ .f32 0x00000000#32))
    (col (ends1 ei))
    (mulf (broadcastInDim S850000x96 ![0, 1] bcast_S850000x1_S850000x96_0_1 (col (nrm ei)))
      (Host.gather gather_S50000x96_S850000x1_S850000x96_1_0_n_n_0_1_196 z (col (wrap (ends0 ei)))))

end Cert.ReferenceIdeal.Agg

end
-- ==== Proof.LibPadSplit.lean ====
/-
  Two general facts for reading a host program back.

  Splitting a line of host operations: the buffer contents after two stretches of host operations run one after the
  other are the second stretch's contents from the first's. This lets a long line be read stretch by stretch, each
  stretch over an arbitrary starting valuation — in particular around a many-operand operation (a concatenation), whose
  operands a read-back of the whole line leaves indexed by a bound variable.

  Reading a padding: a rank-3 array padded on the RIGHT of its LAST axis only (no padding before, none between the
  elements, none on the other axes), read at an index whose last coordinate is inside the operand's extent, is the
  operand at that index — whatever the padding value is.
-/
import Idealize.ShloMosaic.Lib.StableHlo.Run
import Idealize.ShloMosaic.Lib.ValueIdx
import Idealize.ShloMosaic.PureOps

noncomputable section

namespace Cert.PadSplit

open Idealize.ShloMosaic Idealize.ShloMosaic.StableHlo Idealize.ShloMosaic.ValueIdx

/-- The contents after the stretch A followed by the stretch B are B's contents from A's. -/
theorem after_append {τ : Topo} {sig : RefSig} {Val : EltTy → Type} (A B : List (HloOp τ sig Val)) (W : Valuation τ sig Val) :
    after (A ++ B) W = after B (after A W) := by
  induction A generalizing W with
  | nil => rfl
  | cons a A ih => exact ih _

/-- A rank-3 array [n0, n1, n2] padded to [n0, n1, n3] on the right of its last axis, read at (a, b, c) with c < n2, is the
    operand at (a, b, c). -/
theorem pad_last3_apply {α : Type} {n0 n1 n2 n3 hi : ℕ} {u : Shape} (x : (⟨3, ![n0, n1, n2]⟩ : Shape).Idx → α) (v : u.Idx → α)
    (h : (⟨3, ![n0, n1, n2]⟩ : Shape).Pads ![0, 0, 0] ![0, 0, hi] ![0, 0, 0] ⟨3, ![n0, n1, n3]⟩) (hu : 0 < u.numel)
    (a : Fin n0) (b : Fin n1) (c : Fin n3) (hc : c.val < n2) :
    pad ⟨3, ![n0, n1, n3]⟩ ![0, 0, 0] ![0, 0, hi] ![0, 0, 0] x v h hu (ix3 a b c) = x (ix3 a b ⟨c.val, hc⟩) := by
  have ha := a.isLt; have hb := b.isLt
  have hin : ∀ d : Fin (⟨3, ![n0, n1, n2]⟩ : Shape).rank, (![0, 0, 0] : Fin 3 → ℕ) d ≤ ((ix3 a b c) (d.cast h.1)).val
      ∧ (((ix3 a b c) (d.cast h.1)).val - (![0, 0, 0] : Fin 3 → ℕ) d) % ((![0, 0, 0] : Fin 3 → ℕ) d + 1) = 0
      ∧ (((ix3 a b c) (d.cast h.1)).val - (![0, 0, 0] : Fin 3 → ℕ) d) / ((![0, 0, 0] : Fin 3 → ℕ) d + 1) < (⟨3, ![n0, n1, n2]⟩ : Shape).size d := by
    intro d
    match d with
    | ⟨0, _⟩ => exact ⟨Nat.zero_le _, by show (a.val - 0) % (0 + 1) = 0; omega, by show (a.val - 0) / (0 + 1) < n0; omega⟩
    | ⟨1, _⟩ => exact ⟨Nat.zero_le _, by show (b.val - 0) % (0 + 1) = 0; omega, by show (b.val - 0) / (0 + 1) < n1; omega⟩
    | ⟨2, _⟩ => exact ⟨Nat.zero_le _, by show (c.val - 0) % (0 + 1) = 0; omega, by show (c.val - 0) / (0 + 1) < n2; omega⟩
  unfold pad
  rw [dif_pos hin]
  refine congrArg x (funext fun d => Fin.ext ?_)
  match d with
  | ⟨0, _⟩ => show (a.val - 0) / (0 + 1) = a.val; omega
  | ⟨1, _⟩ => show (b.val - 0) / (0 + 1) = b.val; omega
  | ⟨2, _⟩ => show (c.val - 0) / (0 + 1) = c.val; omega

end Cert.PadSplit

end
-- ==== Proof.RefRun.lean ====
/-
  The reference program's run and value.

  The program is a straight line of host operations, so every weakly fair execution terminates with each buffer at
  the fold of the operations' results over the launch contents.  The fold is read stage by stage, each stage over an
  arbitrary starting valuation: the graph side leaves the two rows of edge ends (self-loops appended) and the edges'
  weights in three buffers that no later operation writes; a dense product is the matrix product; the aggregation
  stretch is the aggregation map of the edge list applied to the product; the two broadcasts and the sum add the bias
  laid out as one row to every row; the inlined comparison, product and selection are the leaky rectifier; the head is a
  product and a bias.  Composing the stages gives the three-layer network over the aggregation map of the launch
  contents of the edge list, and the argument buffers, which no operation writes, keep their launch contents.
-/
import proofs.«102307_j46583215292438_1_alg».proof.Proof.RefOps
import proofs.«102307_j46583215292438_1_alg».proof.Proof.RAgg
import proofs.«102307_j46583215292438_1_alg».proof.Proof.LibLeakyGcn
import proofs.«102307_j46583215292438_1_alg».proof.Proof.LibTypedRef
import proofs.«102307_j46583215292438_1_alg».proof.Proof.LibPadSplit

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo
open Cert.Dense Cert.BiasRow Cert.Gcn3

/-- The contents of the first core's buffers, on the extended reals. -/
local notation "𝕍" => Valuation τ sig (Elt Ideal)

/-! ## The graph side and the aggregation, over given edge ends -/

/-- The in-degree over given targets `e1`: ones summed at every edge's target. -/
def degOf (e1 : IVec S850000 32) : FVec Ideal S50000 .f32 :=
  Host.scatterAdd (F := Ideal) scatter_S50000_S850000x1_S850000_n_0_0_1
    (broadcastInDim S50000 ![] bcast_S_S50000 (constant (F := Ideal) S_ .f32 0x00000000#32))
    (Agg.col e1)
    (broadcastInDim S850000 ![] bcast_S_S850000 (constant (F := Ideal) S_ .f32 0x3F800000#32))

/-- Its inverse square root where positive, zero elsewhere. -/
def dinvOf (e1 : IVec S850000 32) : FVec Ideal S50000 .f32 :=
  select (cmpf .ogt (degOf e1) (broadcastInDim S50000 ![] bcast_S_S50000 (constant (F := Ideal) S_ .f32 0x00000000#32)))
    (Host.rsqrt (F := Ideal) (degOf e1))
    (broadcastInDim S50000 ![] bcast_S_S50000 (constant (F := Ideal) S_ .f32 0x00000000#32))

/-- The edges' weights over a given per-node factor `d`, sources `e0` and targets `e1`: the factor at the source times the
    factor at the target. -/
def nrmOf (d : FVec Ideal S50000 .f32) (e0 e1 : IVec S850000 32) : FVec Ideal S850000 .f32 :=
  mulf (Host.gather gather_S50000_S850000x1_S850000_n_0_n_n_0_1_1 d (Agg.col (Agg.wrap e0)))
    (Host.gather gather_S50000_S850000x1_S850000_n_0_n_n_0_1_1 d (Agg.col (Agg.wrap e1)))

/-- At the ends of an edge list, the factor the inverse square root of the degree, they are that edge list's weights. -/
theorem nrmOf_eq {ei : IVec S2x800000 32} {d : FVec Ideal S50000 .f32} {e0 e1 : IVec S850000 32}
    (hd : d = dinvOf e1) (h0 : e0 = Agg.ends0 ei) (h1 : e1 = Agg.ends1 ei) : nrmOf d e0 e1 = Agg.nrm ei := by
  subst hd h0 h1; rfl

/-- The aggregation of a feature array, given the edges' sources `e0`, targets `e1` and weights `nr`: every edge carries
    its source's row times its weight to its target, where the arriving rows are summed. -/
def aggOf (e0 e1 : IVec S850000 32) (nr : FVec Ideal S850000 .f32) (z : FVec Ideal S50000x96 .f32) : FVec Ideal S50000x96 .f32 :=
  Host.scatterAdd (F := Ideal) scatter_S50000x96_S850000x1_S850000x96_1_0_0_1
    (broadcastInDim S50000x96 ![] bcast_S_S50000x96 (constant (F := Ideal) S_ .f32 0x00000000#32))
    (Agg.col e1)
    (mulf (broadcastInDim S850000x96 ![0, 1] bcast_S850000x1_S850000x96_0_1 (Agg.col nr))
      (Host.gather gather_S50000x96_S850000x1_S850000x96_1_0_n_n_0_1_196 z (Agg.col (Agg.wrap e0))))

/-- At the ends and weights of an edge list it is that edge list's aggregation map. -/
theorem aggOf_eq {ei : IVec S2x800000 32} {e0 e1 : IVec S850000 32} {nr : FVec Ideal S850000 .f32} {z z' : FVec Ideal S50000x96 .f32}
    (h0 : e0 = Agg.ends0 ei) (h1 : e1 = Agg.ends1 ei) (h2 : nr = Agg.nrm ei) (h3 : z = z') : aggOf e0 e1 nr z = Agg.agg ei z' := by
  subst h0 h1 h2 h3; rfl

/-! ## Typed references at literal buffers

At a literal buffer whose type is the value's type by computation, carrying a value to the buffer's type, or back, is the
identity. -/

theorem toBuf_v14 (h1 h2 h3) (v : (⟨S50000, .f32⟩ : BufTy).Contents (Elt Ideal)) :
    (TRef.of (T := ⟨S50000, .f32⟩) main_v14 h1 h2 h3).toBuf v = v := rfl
theorem ofBuf_v12 (h1 h2 h3) (v : (⟨S50000, .i1⟩ : BufTy).Contents (Elt Ideal)) :
    (TRef.of (T := ⟨S50000, .i1⟩) main_v12 h1 h2 h3).ofBuf v = v := rfl
theorem ofBuf_v13 (h1 h2 h3) (v : (⟨S50000, .f32⟩ : BufTy).Contents (Elt Ideal)) :
    (TRef.of (T := ⟨S50000, .f32⟩) main_v13 h1 h2 h3).ofBuf v = v := rfl
theorem ofBuf_cst_2 (h1 h2 h3) (v : (⟨S_, .f32⟩ : BufTy).Contents (Elt Ideal)) :
    (TRef.of (T := ⟨S_, .f32⟩) main_cst_2 h1 h2 h3).ofBuf v = v := rfl

/-! ## The graph side, read back -/

theorem prepA_v3 (W : 𝕍) : after (opsPrepA (F := Ideal)) W (Proc.devRef .tc main_v3) = Agg.ends0 (W (Proc.devRef .tc main_arg1)) := by
  after_results_simp <;> rfl

theorem prepA_v6 (W : 𝕍) : after (opsPrepA (F := Ideal)) W (Proc.devRef .tc main_v6) = Agg.ends1 (W (Proc.devRef .tc main_arg1)) := by
  after_results_simp <;> rfl

/-- The inverse square root of the degree, over whatever the buffer of targets holds. -/
theorem prepB_v14 (W : 𝕍) : after (opsPrepB (F := Ideal)) W (Proc.devRef .tc main_v14) = dinvOf (W (Proc.devRef .tc main_v6)) := by
  after_results_simp
  simp only [toBuf_v14, ofBuf_v12, ofBuf_v13, ofBuf_cst_2, Cert.TypedRef.ofBuf_toBuf, id_eq]
  rfl

/-- The weights over whatever the factor's buffer and the two buffers of edge ends hold. -/
theorem prepC_v29 (W : 𝕍) : after (opsPrepC (F := Ideal)) W (Proc.devRef .tc main_v29)
    = nrmOf (W (Proc.devRef .tc main_v14)) (W (Proc.devRef .tc main_v3)) (W (Proc.devRef .tc main_v6)) := by
  after_results_simp <;> rfl

/-! ## What every stage keeps -/

/-- The argument buffers. -/
abbrev argList : List (Ref sig .tc) :=
  [main_arg0, main_arg1, main_arg2, main_arg3, main_arg4, main_arg5, main_arg6, main_arg7, main_arg8, main_arg9]
/-- The buffers no stage after the graph side writes: the arguments and the graph side's three results. -/
abbrev protList : List (Ref sig .tc) := argList ++ [main_v3, main_v6, main_v29]

/-- What holds of the contents `W` at any point after the graph side, over the launch contents `V`: the arguments are
    unchanged and the three graph buffers hold the edge ends and the weights of `V`'s edge list. -/
structure Inv (V W : 𝕍) : Prop where
  keep : ∀ r ∈ argList, W (Proc.devRef .tc r) = V (Proc.devRef .tc r)
  e0 : W (Proc.devRef .tc main_v3) = Agg.ends0 (V (Proc.devRef .tc main_arg1))
  e1 : W (Proc.devRef .tc main_v6) = Agg.ends1 (V (Proc.devRef .tc main_arg1))
  nr : W (Proc.devRef .tc main_v29) = Agg.nrm (V (Proc.devRef .tc main_arg1))

/-- A stretch of operations that writes none of those buffers preserves it. -/
theorem Inv.step {V W : 𝕍} (h : Inv V W) (l : List (HloOp τ sig (Elt Ideal))) (Wl : List (Ref sig .tc))
    (hw : l.Forall fun op => op.writes ⊆ (Wl.map (Proc.devRef (τ := τ) .tc)).toFinset)
    (hd : ∀ r ∈ protList, r ∉ Wl) : Inv V (after l W) where
  keep r hr := (after_of_writes_sub l W hw (hd r (List.mem_append_left _ hr))).trans (h.keep r hr)
  e0 := (after_of_writes_sub l W hw (hd main_v3 (by decide))).trans h.e0
  e1 := (after_of_writes_sub l W hw (hd main_v6 (by decide))).trans h.e1
  nr := (after_of_writes_sub l W hw (hd main_v29 (by decide))).trans h.nr

/-- The graph side establishes it. -/
theorem inv_prep (V : 𝕍) :
    Inv V (after (opsPrepC (F := Ideal)) (after (opsPrepB (F := Ideal)) (after (opsPrepA (F := Ideal)) V))) :=
  have hA : ∀ r ∈ argList, r ∉ opsPrepA_W := by decide
  have hB : ∀ r ∈ argList, r ∉ opsPrepB_W := by decide
  have hC : ∀ r ∈ argList, r ∉ opsPrepC_W := by decide
  have b3 : after (opsPrepB (F := Ideal)) (after (opsPrepA (F := Ideal)) V) (Proc.devRef .tc main_v3) = Agg.ends0 (V (Proc.devRef .tc main_arg1)) :=
    (after_of_writes_sub opsPrepB _ opsPrepB_writes (by decide : main_v3 ∉ opsPrepB_W)).trans (prepA_v3 V)
  have b6 : after (opsPrepB (F := Ideal)) (after (opsPrepA (F := Ideal)) V) (Proc.devRef .tc main_v6) = Agg.ends1 (V (Proc.devRef .tc main_arg1)) :=
    (after_of_writes_sub opsPrepB _ opsPrepB_writes (by decide : main_v6 ∉ opsPrepB_W)).trans (prepA_v6 V)
  have b14 : after (opsPrepB (F := Ideal)) (after (opsPrepA (F := Ideal)) V) (Proc.devRef .tc main_v14)
      = dinvOf (after (opsPrepA (F := Ideal)) V (Proc.devRef .tc main_v6)) := prepB_v14 _
  { keep := fun r hr => (after_of_writes_sub opsPrepC _ opsPrepC_writes (hC r hr)).trans
      ((after_of_writes_sub opsPrepB _ opsPrepB_writes (hB r hr)).trans
        (after_of_writes_sub opsPrepA V opsPrepA_writes (hA r hr)))
    e0 := (after_of_writes_sub opsPrepC _ opsPrepC_writes (by decide : main_v3 ∉ opsPrepC_W)).trans b3
    e1 := (after_of_writes_sub opsPrepC _ opsPrepC_writes (by decide : main_v6 ∉ opsPrepC_W)).trans b6
    nr := (prepC_v29 _).trans (nrmOf_eq (b14.trans (congrArg dinvOf ((prepA_v6 V).trans b6.symm))) b3 b6) }

/-! ## The stages of a layer, over any contents -/

/-- Layer 1's dense product is the matrix product. -/
theorem dot1_sem (W : 𝕍) : after (opsDot1 (F := Ideal)) W (Proc.devRef .tc main_v30)
    = mm (W (Proc.devRef .tc main_arg0) : Mat 50000 128) (W (Proc.devRef .tc main_arg2) : Mat 128 96) := by
  refine Eq.trans ?_ (hostDot_eq_mm (φ₁ := .f32) (φ₂ := .f32) dot_S50000x128_S128x96_S50000x96_1_0_0_1_n_n rfl rfl rfl rfl rfl rfl none _ _)
  after_results_simp <;> rfl

/-- Layer 1's aggregation stretch, over whatever the three graph buffers hold. -/
theorem agg1_raw (W : 𝕍) : after (opsAgg1 (F := Ideal)) W (Proc.devRef .tc main_v43)
    = aggOf (W (Proc.devRef .tc main_v3)) (W (Proc.devRef .tc main_v6)) (W (Proc.devRef .tc main_v29)) (W (Proc.devRef .tc main_v30)) := by
  after_results_simp <;> rfl

/-- Layer 1's bias: the vector laid out as one row, added to every row. -/
theorem bias1_sem (W : 𝕍) : after (opsBias1 (F := Ideal)) W (Proc.devRef .tc main_v46)
    = addRow (W (Proc.devRef .tc main_v43) : Mat 50000 96) (row (W (Proc.devRef .tc main_arg3) : Row 96)) := by
  refine Eq.trans ?_ (hostAddRow _ _ bcast_S96_S1x96_1 bcast_S1x96_S50000x96_0_1)
  after_results <;> rfl

/-- Layer 1's rectifier. -/
theorem lrelu1_sem (W : 𝕍) : after (opsLrelu1 (F := Ideal)) W (Proc.devRef .tc main_v47)
    = lrelu (W (Proc.devRef .tc main_v46) : FVec Ideal S50000x96 .f32) := by
  refine Eq.trans ?_ (hostLrelu _ bcast_S_S50000x96)
  after_results <;> rfl

/-- Layer 2's dense product is the matrix product. -/
theorem dot2_sem (W : 𝕍) : after (opsDot2 (F := Ideal)) W (Proc.devRef .tc main_v48)
    = mm (W (Proc.devRef .tc main_v47) : Mat 50000 96) (W (Proc.devRef .tc main_arg4) : Mat 96 96) := by
  refine Eq.trans ?_ (hostDot_eq_mm (φ₁ := .f32) (φ₂ := .f32) dot_S50000x96_S96x96_S50000x96_1_0_0_1_n_n rfl rfl rfl rfl rfl rfl none _ _)
  after_results_simp <;> rfl

/-- Layer 2's aggregation stretch, over whatever the three graph buffers hold. -/
theorem agg2_raw (W : 𝕍) : after (opsAgg2 (F := Ideal)) W (Proc.devRef .tc main_v61)
    = aggOf (W (Proc.devRef .tc main_v3)) (W (Proc.devRef .tc main_v6)) (W (Proc.devRef .tc main_v29)) (W (Proc.devRef .tc main_v48)) := by
  after_results_simp <;> rfl

/-- Layer 2's bias: the vector laid out as one row, added to every row. -/
theorem bias2_sem (W : 𝕍) : after (opsBias2 (F := Ideal)) W (Proc.devRef .tc main_v64)
    = addRow (W (Proc.devRef .tc main_v61) : Mat 50000 96) (row (W (Proc.devRef .tc main_arg5) : Row 96)) := by
  refine Eq.trans ?_ (hostAddRow _ _ bcast_S96_S1x96_1 bcast_S1x96_S50000x96_0_1)
  after_results <;> rfl

/-- Layer 2's rectifier. -/
theorem lrelu2_sem (W : 𝕍) : after (opsLrelu2 (F := Ideal)) W (Proc.devRef .tc main_v65)
    = lrelu (W (Proc.devRef .tc main_v64) : FVec Ideal S50000x96 .f32) := by
  refine Eq.trans ?_ (hostLrelu _ bcast_S_S50000x96)
  after_results <;> rfl

/-- Layer 3's dense product is the matrix product. -/
theorem dot3_sem (W : 𝕍) : after (opsDot3 (F := Ideal)) W (Proc.devRef .tc main_v66)
    = mm (W (Proc.devRef .tc main_v65) : Mat 50000 96) (W (Proc.devRef .tc main_arg6) : Mat 96 96) := by
  refine Eq.trans ?_ (hostDot_eq_mm (φ₁ := .f32) (φ₂ := .f32) dot_S50000x96_S96x96_S50000x96_1_0_0_1_n_n rfl rfl rfl rfl rfl rfl none _ _)
  after_results_simp <;> rfl

/-- Layer 3's aggregation stretch, over whatever the three graph buffers hold. -/
theorem agg3_raw (W : 𝕍) : after (opsAgg3 (F := Ideal)) W (Proc.devRef .tc main_v79)
    = aggOf (W (Proc.devRef .tc main_v3)) (W (Proc.devRef .tc main_v6)) (W (Proc.devRef .tc main_v29)) (W (Proc.devRef .tc main_v66)) := by
  after_results_simp <;> rfl

/-- Layer 3's bias: the vector laid out as one row, added to every row. -/
theorem bias3_sem (W : 𝕍) : after (opsBias3 (F := Ideal)) W (Proc.devRef .tc main_v82)
    = addRow (W (Proc.devRef .tc main_v79) : Mat 50000 96) (row (W (Proc.devRef .tc main_arg7) : Row 96)) := by
  refine Eq.trans ?_ (hostAddRow _ _ bcast_S96_S1x96_1 bcast_S1x96_S50000x96_0_1)
  after_results <;> rfl

/-- Layer 3's rectifier. -/
theorem lrelu3_sem (W : 𝕍) : after (opsLrelu3 (F := Ideal)) W (Proc.devRef .tc main_v83)
    = lrelu (W (Proc.devRef .tc main_v82) : FVec Ideal S50000x96 .f32) := by
  refine Eq.trans ?_ (hostLrelu _ bcast_S_S50000x96)
  after_results <;> rfl

/-- The head: the product with the last weights and its bias row. -/
theorem head_sem (W : 𝕍) : after (opsHead (F := Ideal)) W (Proc.devRef .tc main_v87)
    = addRow (mm (W (Proc.devRef .tc main_v83) : Mat 50000 96) (W (Proc.devRef .tc main_arg8) : Mat 96 21)) (row (W (Proc.devRef .tc main_arg9) : Row 21)) := by
  refine Eq.trans ?_ ((hostAddRow (M := 50000) (N := 21) _ _ bcast_S21_S1x21_1 bcast_S1x21_S50000x21_0_1).trans
    (congrArg (fun X : Mat 50000 21 => addRow X (row (W (Proc.devRef .tc main_arg9) : Row 21)))
      (hostDot_eq_mm (φ₁ := .f32) (φ₂ := .f32) dot_S50000x96_S96x21_S50000x21_1_0_0_1_n_n rfl rfl rfl rfl rfl rfl none
        (W (Proc.devRef .tc main_v83) : Mat 50000 96) (W (Proc.devRef .tc main_arg8) : Mat 96 21))))
  after_results_simp <;> rfl

/-! ## The whole line -/

/-- The contents after the whole line are the stages' contents, one after the other. -/
theorem ops_after (V : 𝕍) : after (ops (F := Ideal)) V
    = after opsHead (after opsLrelu3 (after opsBias3 (after opsAgg3 (after opsDot3 (after opsLrelu2 (after opsBias2 (after opsAgg2
        (after opsDot2 (after opsLrelu1 (after opsBias1 (after opsAgg1 (after opsDot1 (after opsPrepC (after opsPrepB (after opsPrepA V))))))))))))))) := by
  simp only [ops, ops_part0, ops_part1, Cert.PadSplit.after_append]

/-- The result buffer after the whole line holds the network over the aggregation map of the launch contents' edge list,
    and the invariant holds at the end. -/
theorem line (V : 𝕍) :
    after (ops (F := Ideal)) V (Proc.devRef .tc main_v87)
        = net (Agg.agg (V (Proc.devRef .tc main_arg1))) (V (Proc.devRef .tc main_arg0) : Mat 50000 128) (V (Proc.devRef .tc main_arg2) : Mat 128 96) (row (V (Proc.devRef .tc main_arg3) : Row 96))
            (V (Proc.devRef .tc main_arg4) : Mat 96 96) (row (V (Proc.devRef .tc main_arg5) : Row 96)) (V (Proc.devRef .tc main_arg6) : Mat 96 96) (row (V (Proc.devRef .tc main_arg7) : Row 96))
            (V (Proc.devRef .tc main_arg8) : Mat 96 21) (row (V (Proc.devRef .tc main_arg9) : Row 21))
      ∧ Inv V (after (ops (F := Ideal)) V) := by
  have i0 := inv_prep V
  have d1 := (dot1_sem _).trans (congrArg₂ (mm (M := 50000) (K := 128) (N := 96)) (i0.keep main_arg0 (by decide)) (i0.keep main_arg2 (by decide)))
  have i1 := i0.step opsDot1 opsDot1_W opsDot1_writes (by decide)
  have a1 := (agg1_raw _).trans (aggOf_eq i1.e0 i1.e1 i1.nr d1)
  have i2 := i1.step opsAgg1 opsAgg1_W opsAgg1_writes (by decide)
  have b1 := (bias1_sem _).trans (congrArg₂ (addRow (M := 50000) (N := 96)) a1 (congrArg row (i2.keep main_arg3 (by decide))))
  have i3 := i2.step opsBias1 opsBias1_W opsBias1_writes (by decide)
  have l1 := (lrelu1_sem _).trans (congrArg lrelu b1)
  have i4 := i3.step opsLrelu1 opsLrelu1_W opsLrelu1_writes (by decide)
  have d2 := (dot2_sem _).trans (congrArg₂ (mm (M := 50000) (K := 96) (N := 96)) l1 (i4.keep main_arg4 (by decide)))
  have i5 := i4.step opsDot2 opsDot2_W opsDot2_writes (by decide)
  have a2 := (agg2_raw _).trans (aggOf_eq i5.e0 i5.e1 i5.nr d2)
  have i6 := i5.step opsAgg2 opsAgg2_W opsAgg2_writes (by decide)
  have b2 := (bias2_sem _).trans (congrArg₂ (addRow (M := 50000) (N := 96)) a2 (congrArg row (i6.keep main_arg5 (by decide))))
  have i7 := i6.step opsBias2 opsBias2_W opsBias2_writes (by decide)
  have l2 := (lrelu2_sem _).trans (congrArg lrelu b2)
  have i8 := i7.step opsLrelu2 opsLrelu2_W opsLrelu2_writes (by decide)
  have d3 := (dot3_sem _).trans (congrArg₂ (mm (M := 50000) (K := 96) (N := 96)) l2 (i8.keep main_arg6 (by decide)))
  have i9 := i8.step opsDot3 opsDot3_W opsDot3_writes (by decide)
  have a3 := (agg3_raw _).trans (aggOf_eq i9.e0 i9.e1 i9.nr d3)
  have i10 := i9.step opsAgg3 opsAgg3_W opsAgg3_writes (by decide)
  have b3 := (bias3_sem _).trans (congrArg₂ (addRow (M := 50000) (N := 96)) a3 (congrArg row (i10.keep main_arg7 (by decide))))
  have i11 := i10.step opsBias3 opsBias3_W opsBias3_writes (by decide)
  have l3 := (lrelu3_sem _).trans (congrArg lrelu b3)
  have i12 := i11.step opsLrelu3 opsLrelu3_W opsLrelu3_writes (by decide)
  have hd := (head_sem _).trans (congrArg₂ (addRow (M := 50000) (N := 21)) (congrArg₂ (mm (M := 50000) (K := 96) (N := 21)) l3 (i12.keep main_arg8 (by decide))) (congrArg row (i12.keep main_arg9 (by decide))))
  have i13 := i12.step opsHead opsHead_W opsHead_writes (by decide)
  rw [ops_after V]
  exact ⟨hd, i13⟩

/-! ## The run -/

/-- On every device, from any memory with zero counters: every weakly fair execution of the program terminates with
    the result buffer at the three-layer network over the aggregation map of the edge list — the node features, the
    weights and the biases (each laid out as one row) the launch contents of the arguments — and the arguments unchanged. -/
theorem value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v87)
        = Cert.Gcn3.net (Cert.ReferenceIdeal.Agg.agg (m ((c.tc : Thread nD τ).loc main_arg1)))
            (m ((c.tc : Thread nD τ).loc main_arg0)) (m ((c.tc : Thread nD τ).loc main_arg2)) (Cert.Dense.row (m ((c.tc : Thread nD τ).loc main_arg3)))
            (m ((c.tc : Thread nD τ).loc main_arg4)) (Cert.Dense.row (m ((c.tc : Thread nD τ).loc main_arg5)))
            (m ((c.tc : Thread nD τ).loc main_arg6)) (Cert.Dense.row (m ((c.tc : Thread nD τ).loc main_arg7)))
            (m ((c.tc : Thread nD τ).loc main_arg8)) (Cert.Dense.row (m ((c.tc : Thread nD τ).loc main_arg9)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run (defs (F := Ideal)) _ _).mono (fun _ h c =>
      ⟨(h c main_v87).trans (line (launchContents m c)).1,
       (h c main_arg0).trans ((line (launchContents m c)).2.keep main_arg0 (by decide)),
       (h c main_arg1).trans ((line (launchContents m c)).2.keep main_arg1 (by decide)),
       (h c main_arg2).trans ((line (launchContents m c)).2.keep main_arg2 (by decide)),
       (h c main_arg3).trans ((line (launchContents m c)).2.keep main_arg3 (by decide)),
       (h c main_arg4).trans ((line (launchContents m c)).2.keep main_arg4 (by decide)),
       (h c main_arg5).trans ((line (launchContents m c)).2.keep main_arg5 (by decide)),
       (h c main_arg6).trans ((line (launchContents m c)).2.keep main_arg6 (by decide)),
       (h c main_arg7).trans ((line (launchContents m c)).2.keep main_arg7 (by decide)),
       (h c main_arg8).trans ((line (launchContents m c)).2.keep main_arg8 (by decide)),
       (h c main_arg9).trans ((line (launchContents m c)).2.keep main_arg9 (by decide))⟩)
    (run_seq scopedRefs_eq scopedSems_eq defs main (fun _ => ops) main_eq (fun _ => ops_sub) m ρ)

end Cert.ReferenceIdeal.RefRun

end
-- ==== Proof.lean ====
/-
  The certificate of a three-layer graph convolution: a kernel that computes the four dense stages (a row-tiled
  matrix product each; from the second on, first the previous layer's bias row and a leaky rectifier; the last also
  adds the output bias) as regions between the host's graph aggregations, against a reference that computes the same
  network in one host program.

  At the ideal instance both programs compute ONE function of the arguments, the network `Cert.Gcn3.net` over the
  host's aggregation map: the aggregation (the edges' ends from the edge list and the self-loops, the in-degree,
  its guarded inverse square root, the edge weights, gather, scale, sum at the targets) is the same sequence of host
  operations in both programs and is never opened; a dense stage is the same sum of products whether it is computed
  on blocks of 5000 rows or on the whole array, since an entry of a product depends on one row of the left operand, a
  bias is added and the rectifier applied entry by entry, and a change of float format is the identity.  No finiteness
  of the inputs is used.

  The kernel's result is read off the run of its segments (the contents at each boundary, the regions' values, the
  stretches between them); the reference's off the run of its operations with the called functions' operations in
  line.  The frames of the two kernels are the generated ones; the reference's frame is its run with the result dropped;
  the idealization rewrote nothing.
-/
import proofs.«102307_j46583215292438_1_alg».proof.Defs
import proofs.«102307_j46583215292438_1_alg».proof.Proof.Gen.Kernel
import proofs.«102307_j46583215292438_1_alg».proof.Proof.Gen.Kernel.Frame
import proofs.«102307_j46583215292438_1_alg».proof.Proof.Gen.KernelIdeal
import proofs.«102307_j46583215292438_1_alg».proof.Proof.Gen.KernelIdeal.Frame
import proofs.«102307_j46583215292438_1_alg».proof.Proof.Gen.ReferenceIdeal
import proofs.«102307_j46583215292438_1_alg».proof.Proof.Gen.Pre_finite_inputs
import proofs.«102307_j46583215292438_1_alg».proof.Proof.KRun
import proofs.«102307_j46583215292438_1_alg».proof.Proof.KValue
import proofs.«102307_j46583215292438_1_alg».proof.Proof.Region0
import proofs.«102307_j46583215292438_1_alg».proof.Proof.Region1
import proofs.«102307_j46583215292438_1_alg».proof.Proof.Region2
import proofs.«102307_j46583215292438_1_alg».proof.Proof.Region3
import proofs.«102307_j46583215292438_1_alg».proof.Proof.RefRun

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefRun.value m ρ)

/-- The idealization rewrote no operation. -/
theorem preserves : Cert.preserves_Kernel_KernelIdeal := trivial

section KernelValue

open Cert.KernelIdeal

/-- The idealized kernel's run: the result array ends at the network of the launch memory's arguments. -/
theorem kernel_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v76)
        = Cert.Gcn3.net (Cert.KernelIdeal.Agg.agg (m ((c.tc : Thread nD τ).loc main_arg1)))
            (m ((c.tc : Thread nD τ).loc main_arg0) : S50000x128.Idx → EReal) (m ((c.tc : Thread nD τ).loc main_arg2) : S128x96.Idx → EReal)
            (Cert.Dense.row (m ((c.tc : Thread nD τ).loc main_arg3) : S96.Idx → EReal))
            (m ((c.tc : Thread nD τ).loc main_arg4) : S96x96.Idx → EReal) (Cert.Dense.row (m ((c.tc : Thread nD τ).loc main_arg5) : S96.Idx → EReal))
            (m ((c.tc : Thread nD τ).loc main_arg6) : S96x96.Idx → EReal) (Cert.Dense.row (m ((c.tc : Thread nD τ).loc main_arg7) : S96.Idx → EReal))
            (m ((c.tc : Thread nD τ).loc main_arg8) : S96x21.Idx → EReal) (Cert.Dense.row (m ((c.tc : Thread nD τ).loc main_arg9) : S21.Idx → EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨(h c).1.trans (Cert.KernelIdeal.KValue.value m ρ c
      (fun V => Cert.KernelIdeal.RegionVal.final0 V c) (fun V => Cert.KernelIdeal.RegionVal.final1 V c)
      (fun V => Cert.KernelIdeal.RegionVal.final2 V c) (fun V => Cert.KernelIdeal.RegionVal.final3 V c)), (h c).2⟩)
    (Cert.KernelIdeal.Gen.run_value (F := Ideal) m ρ)

end KernelValue

/-- The two programs apply one aggregation map: the same host operations over the same edge list. -/
theorem agg_eq (ei : IVec Cert.KernelIdeal.S2x800000 32) :
    Cert.ReferenceIdeal.Agg.agg ei = Cert.KernelIdeal.Agg.agg ei := rfl

/-- From memories that agree on the arguments both programs end with the network of those arguments. -/
theorem algebraic : Cert.algebraic_KernelIdeal_ReferenceIdeal := by
  intro m ρ m' ρ' _ hagree
  refine ⟨_, kernel_value m ρ, ?_⟩
  refine (θ_run Cert.ReferenceIdeal.defs _ _).mono (fun _ h c => ⟨(h c).1.trans ?_, (h c).2⟩)
    (Cert.ReferenceIdeal.RefRun.value m' ρ')
  obtain ⟨h0, h1, h2, h3, h4, h5, h6, h7, h8, h9⟩ := hagree c
  rw [h0, h1, h2, h3, h4, h5, h6, h7, h8, h9, agg_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
